-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S16384x2048 : Shape := ⟨2, ![16384, 2048]⟩
abbrev S1024x1024 : Shape := ⟨2, ![1024, 1024]⟩
abbrev S1024 : Shape := ⟨1, ![1024]⟩
abbrev S2048x1024 : Shape := ⟨2, ![2048, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S16384x2048 : S_.BroadcastsInDim S16384x2048 (![] : Fin 0 → Fin S16384x2048.rank)
  reducesTo_S16384x2048_S_d0_1 : S16384x2048.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_

variable [Facts]

def fn_part7 {F : FTy → Type} [FloatOps F] (main_arg25 : FVec F S2048x1024 .f32) (main_arg26 : FVec F S1024 .f32) (main_v118 : IVec S_ 1) (main_v119 : FVec F S1024 .f32) : IVec S_ 1 :=
  let main_cst_46 : FVec F S_ .f32 := constant S_ .f32 0x7F800000#32
  let main_v120 : FVec F S1024 .f32 := broadcastInDim S1024 ![] bcast_S_S1024 main_cst_46
  let main_v121 : IVec S1024 1 := cmpf .olt main_v119 main_v120
  let main_c_47 : IVec S_ 1 := constantI S_ 1 1#1
  let main_v122 : IVec S_ 1 := (fun x v => Host.reduce IntOp.andi x v reducesTo_S1024_S_d0 h_S_) main_v121 main_c_47
  let main_v123 : IVec S_ 1 := andi main_v118 main_v122
  let main_v124 : FVec F S2048x1024 .f32 := Host.absf main_arg25
  let main_cst_48 : FVec F S_ .f32 := constant S_ .f32 0x7F800000#32
  let main_v125 : FVec F S2048x1024 .f32 := broadcastInDim S2048x1024 ![] bcast_S_S2048x1024 main_cst_48
  let main_v126 : IVec S2048x1024 1 := cmpf .olt main_v124 main_v125
  let main_c_49 : IVec S_ 1 := constantI S_ 1 1#1
  let main_v127 : IVec S_ 1 := (fun x v => Host.reduce IntOp.andi x v reducesTo_S2048x1024_S_d0_1 h_S_) main_v126 main_c_49
  let main_v128 : IVec S_ 1 := andi main_v123 main_v127
  let main_v129 : FVec F S1024 .f32 := Host.absf main_arg26
  let main_cst_50 : FVec F S_ .f32 := constant S_ .f32 0x7F800000#32
  let main_v130 : FVec F S1024 .f32 := broadcastInDim S1024 ![] bcast_S_S1024 main_cst_50
  let main_v131 : IVec S1024 1 := cmpf .olt main_v129 main_v130
  let main_c_51 : IVec S_ 1 := constantI S_ 1 1#1
  let main_v132 : IVec S_ 1 := (fun x v => Host.reduce IntOp.andi x v reducesTo_S1024_S_d0 h_S_) main_v131 main_c_51
  let main_v133 : IVec S_ 1 := andi main_v128 main_v132
  main_v133

def fn_part6 {F : FTy → Type} [FloatOps F] (main_arg21 : FVec F S1024x1024 .f32) (main_arg22 : FVec F S1024 .f32) (main_arg23 : FVec F S1024x1024 .f32) (main_arg24 : FVec F S1024 .f32) (main_arg25 : FVec F S2048x1024 .f32) (main_arg26 : FVec F S1024 .f32) (main_v98 : IVec S_ 1) (main_v101 : IVec S1024 1) (main_c_39 : IVec S_ 1) : IVec S_ 1 :=
  let main_v102 : IVec S_ 1 := (fun x v => Host.reduce IntOp.andi x v reducesTo_S1024_S_d0 h_S_) main_v101 main_c_39
  let main_v103 : IVec S_ 1 := andi main_v98 main_v102
  let main_v104 : FVec F S1024x1024 .f32 := Host.absf main_arg21
  let main_cst_40 : FVec F S_ .f32 := constant S_ .f32 0x7F800000#32
  let main_v105 : FVec F S1024x1024 .f32 := broadcastInDim S1024x1024 ![] bcast_S_S1024x1024 main_cst_40
  let main_v106 : IVec S1024x1024 1 := cmpf .olt main_v104 main_v105
  let main_c_41 : IVec S_ 1 := constantI S_ 1 1#1
  let main_v107 : IVec S_ 1 := (fun x v => Host.reduce IntOp.andi x v reducesTo_S1024x1024_S_d0_1 h_S_) main_v106 main_c_41
  let main_v108 : IVec S_ 1 := andi main_v103 main_v107
  let main_v109 : FVec F S1024 .f32 := Host.absf main_arg22
  let main_cst_42 : FVec F S_ .f32 := constant S_ .f32 0x7F800000#32
  let main_v110 : FVec F S1024 .f32 := broadcastInDim S1024 ![] bcast_S_S1024 main_cst_42
  let main_v111 : IVec S1024 1 := cmpf .olt main_v109 main_v110
  let main_c_43 : IVec S_ 1 := constantI S_ 1 1#1
  let main_v112 : IVec S_ 1 := (fun x v => Host.reduce IntOp.andi x v reducesTo_S1024_S_d0 h_S_) main_v111 main_c_43
  let main_v113 : IVec S_ 1 := andi main_v108 main_v112
  let main_v114 : FVec F S1024x1024 .f32 := Host.absf main_arg23
  let main_cst_44 : FVec F S_ .f32 := constant S_ .f32 0x7F800000#32
  let main_v115 : FVec F S1024x1024 .f32 := broadcastInDim S1024x1024 ![] bcast_S_S1024x1024 main_cst_44
  let main_v116 : IVec S1024x1024 1 := cmpf .olt main_v114 main_v115
  let main_c_45 : IVec S_ 1 := constantI S_ 1 1#1
  let main_v117 : IVec S_ 1 := (fun x v => Host.reduce IntOp.andi x v reducesTo_S1024x1024_S_d0_1 h_S_) main_v116 main_c_45
  let main_v118 : IVec S_ 1 := andi main_v113 main_v117
  let main_v119 : FVec F S1024 .f32 := Host.absf main_arg24
  fn_part7 (F := F) main_arg25 main_arg26 main_v118 main_v119

def fn_part5 {F : FTy → Type} [FloatOps F] (main_arg18 : FVec F S1024 .f32) (main_arg19 : FVec F S2048x1024 .f32) (main_arg20 : FVec F S1024 .f32) (main_arg21 : FVec F S1024x1024 .f32) (main_arg22 : FVec F S1024 .f32) (main_arg23 : FVec F S1024x1024 .f32) (main_arg24 : FVec F S1024 .f32) (main_arg25 : FVec F S2048x1024 .f32) (main_arg26 : FVec F S1024 .f32) (main_v83 : IVec S_ 1) (main_v84 : FVec F S2048x1024 .f32) (main_cst_32 : FVec F S_ .f32) : IVec S_ 1 :=
  let main_v85 : FVec F S2048x1024 .f32 := broadcastInDim S2048x1024 ![] bcast_S_S2048x1024 main_cst_32
  let main_v86 : IVec S2048x1024 1 := cmpf .olt main_v84 main_v85
  let main_c_33 : IVec S_ 1 := constantI S_ 1 1#1
  let main_v87 : IVec S_ 1 := (fun x v => Host.reduce IntOp.andi x v reducesTo_S2048x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S2048x1024 .f32 := Host.absf main_arg19
  let main_cst_36 : FVec F S_ .f32 := constant S_ .f32 0x7F800000#32
  let main_v95 : FVec F S2048x1024 .f32 := broadcastInDim S2048x1024 ![] bcast_S_S2048x1024 main_cst_36
  let main_v96 : IVec S2048x1024 1 := cmpf .olt main_v94 main_v95
  let main_c_37 : IVec S_ 1 := constantI S_ 1 1#1
  let main_v97 : IVec S_ 1 := (fun x v => Host.reduce IntOp.andi x v reducesTo_S2048x1024_S_d0_1 h_S_) main_v96 main_c_37
  let main_v98 : IVec S_ 1 := andi main_v93 main_v97
  let main_v99 : FVec F S1024 .f32 := Host.absf main_arg20
  let main_cst_38 : FVec F S_ .f32 := constant S_ .f32 0x7F800000#32
  let main_v100 : FVec F S1024 .f32 := broadcastInDim S1024 ![] bcast_S_S1024 main_cst_38
  let main_v101 : IVec S1024 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S1024x1024 .f32) (main_arg22 : FVec F S1024 .f32) (main_arg23 : FVec F S1024x1024 .f32) (main_arg24 : FVec F S1024 .f32) (main_arg25 : FVec F S2048x1024 .f32) (main_arg26 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S2048x1024 .f32 := Host.absf main_arg15
  let main_cst_28 : FVec F S_ .f32 := constant S_ .f32 0x7F800000#32
  let main_v75 : FVec F S2048x1024 .f32 := broadcastInDim S2048x1024 ![] bcast_S_S2048x1024 main_cst_28
  let main_v76 : IVec S2048x1024 1 := cmpf .olt main_v74 main_v75
  let main_c_29 : IVec S_ 1 := constantI S_ 1 1#1
  let main_v77 : IVec S_ 1 := (fun x v => Host.reduce IntOp.andi x v reducesTo_S2048x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S2048x1024 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S1024x1024 .f32) (main_arg22 : FVec F S1024 .f32) (main_arg23 : FVec F S1024x1024 .f32) (main_arg24 : FVec F S1024 .f32) (main_arg25 : FVec F S2048x1024 .f32) (main_arg26 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S1024x1024 .f32) (main_arg22 : FVec F S1024 .f32) (main_arg23 : FVec F S1024x1024 .f32) (main_arg24 : FVec F S1024 .f32) (main_arg25 : FVec F S2048x1024 .f32) (main_arg26 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S1024x1024 .f32) (main_arg22 : FVec F S1024 .f32) (main_arg23 : FVec F S1024x1024 .f32) (main_arg24 : FVec F S1024 .f32) (main_arg25 : FVec F S2048x1024 .f32) (main_arg26 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S16384x1024 .f32) (main_arg1 : FVec F S16384x1024 .f32) (main_arg2 : FVec F S16384x2048 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S2048x1024 .f32) (main_arg16 : FVec F S1024 .f32) (main_arg17 : FVec F S2048x1024 .f32) (main_arg18 : FVec F S1024 .f32) (main_arg19 : FVec F S2048x1024 .f32) (main_arg20 : FVec F S1024 .f32) (main_arg21 : FVec F S1024x1024 .f32) (main_arg22 : FVec F S1024 .f32) (main_arg23 : FVec F S1024x1024 .f32) (main_arg24 : FVec F S1024 .f32) (main_arg25 : FVec F S2048x1024 .f32) (main_arg26 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x2048 .f32 := Host.absf main_arg2
  let main_cst_2 : FVec F S_ .f32 := constant S_ .f32 0x7F800000#32
  let main_v10 : FVec F S16384x2048 .f32 := broadcastInDim S16384x2048 ![] bcast_S_S16384x2048 main_cst_2
  let main_v11 : IVec S16384x2048 1 := cmpf .olt main_v9 main_v10
  let main_c_3 : IVec S_ 1 := constantI S_ 1 1#1
  let main_v12 : IVec S_ 1 := (fun x v => Host.reduce IntOp.andi x v reducesTo_S16384x2048_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S16384x1024 : Shape := ⟨2, ![16384, 1024]⟩
abbrev S16384x2048 : Shape := ⟨2, ![16384, 2048]⟩
abbrev S1024x1024 : Shape := ⟨2, ![1024, 1024]⟩
abbrev S1024 : Shape := ⟨1, ![1024]⟩
abbrev S2048x1024 : Shape := ⟨2, ![2048, 1024]⟩
abbrev S1024x4096 : Shape := ⟨2, ![1024, 4096]⟩
abbrev S1024x2048 : Shape := ⟨2, ![1024, 2048]⟩
abbrev S2048x4096 : Shape := ⟨2, ![2048, 4096]⟩
abbrev S4096 : Shape := ⟨1, ![4096]⟩
abbrev S1x4096 : Shape := ⟨2, ![1, 4096]⟩
abbrev S2048 : Shape := ⟨1, ![2048]⟩
abbrev S1x2048 : Shape := ⟨2, ![1, 2048]⟩
abbrev S1x1024 : Shape := ⟨2, ![1, 1024]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 45
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S2048x1024, .f32⟩
  | .hbm, ⟨16, _⟩ => ⟨S1024, .f32⟩
  | .hbm, ⟨17, _⟩ => ⟨S2048x1024, .f32⟩
  | .hbm, ⟨18, _⟩ => ⟨S1024, .f32⟩
  | .hbm, ⟨19, _⟩ => ⟨S2048x1024, .f32⟩
  | .hbm, ⟨20, _⟩ => ⟨S1024, .f32⟩
  | .hbm, ⟨21, _⟩ => ⟨S1024x1024, .f32⟩
  | .hbm, ⟨22, _⟩ => ⟨S1024, .f32⟩
  | .hbm, ⟨23, _⟩ => ⟨S1024x1024, .f32⟩
  | .hbm, ⟨24, _⟩ => ⟨S1024, .f32⟩
  | .hbm, ⟨25, _⟩ => ⟨S2048x1024, .f32⟩
  | .hbm, ⟨26, _⟩ => ⟨S1024, .f32⟩
  | .hbm, ⟨27, _⟩ => ⟨S1024x4096, .f32⟩
  | .hbm, ⟨28, _⟩ => ⟨S1024x4096, .bf16⟩
  | .hbm, ⟨29, _⟩ => ⟨S1024x2048, .f32⟩
  | .hbm, ⟨30, _⟩ => ⟨S1024x2048, .bf16⟩
  | .hbm, ⟨31, _⟩ => ⟨S2048x4096, .f32⟩
  | .hbm, ⟨32, _⟩ => ⟨S2048x4096, .bf16⟩
  | .hbm, ⟨33, _⟩ => ⟨S1024x1024, .bf16⟩
  | .hbm, ⟨34, _⟩ => ⟨S1024x1024, .bf16⟩
  | .hbm, ⟨35, _⟩ => ⟨S4096, .f32⟩
  | .hbm, ⟨36, _⟩ => ⟨S1x4096, .f32⟩
  | .hbm, ⟨37, _⟩ => ⟨S2048, .f32⟩
  | .hbm, ⟨38, _⟩ => ⟨S1x2048, .f32⟩
  | .hbm, ⟨39, _⟩ => ⟨S4096, .f32⟩
  | .hbm, ⟨40, _⟩ => ⟨S1x4096, .f32⟩
  | .hbm, ⟨41, _⟩ => ⟨S1x1024, .f32⟩
  | .hbm, ⟨42, _⟩ => ⟨S1x1024, .f32⟩
  | .hbm, ⟨43, _⟩ => ⟨S16384x1024, .f32⟩
  | .hbm, ⟨44, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x2048, .f32⟩
  | .local _ .vmem, ⟨5, _⟩ => ⟨S256x2048, .f32⟩
  | .local _ .vmem, ⟨6, _⟩ => ⟨S1024x4096, .bf16⟩
  | .local _ .vmem, ⟨7, _⟩ => ⟨S1024x2048, .bf16⟩
  | .local _ .vmem, ⟨8, _⟩ => ⟨S2048x4096, .bf16⟩
  | .local _ .vmem, ⟨9, _⟩ => ⟨S1024x1024, .bf16⟩
  | .local _ .vmem, ⟨10, _⟩ => ⟨S1024x1024, .bf16⟩
  | .local _ .vmem, ⟨11, _⟩ => ⟨S1x4096, .f32⟩
  | .local _ .vmem, ⟨12, _⟩ => ⟨S1x2048, .f32⟩
  | .local _ .vmem, ⟨13, _⟩ => ⟨S1x4096, .f32⟩
  | .local _ .vmem, ⟨14, _⟩ => ⟨S1x1024, .f32⟩
  | .local _ .vmem, ⟨15, _⟩ => ⟨S1x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16_0 : Ref sig .tc := ⟨.hbm, 43, rfl⟩
abbrev main_v16_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  concatenates_S1024x1024_S1024x1024_S1024x1024_S1024x1024_S1024x4096_d1 : Shape.Concatenates [S1024x1024, S1024x1024, S1024x1024, S1024x1024] S1024x4096 1
  bitsLt_bf16_f32 : FTy.bits .bf16 < FTy.bits .f32
  concatenates_S1024x1024_S1024x1024_S1024x2048_d1 : Shape.Concatenates [S1024x1024, S1024x1024] S1024x2048 1
  concatenates_S2048x1024_S2048x1024_S2048x1024_S2048x1024_S2048x4096_d1 : Shape.Concatenates [S2048x1024, S2048x1024, S2048x1024, S2048x1024] S2048x4096 1
  concatenates_S1024_S1024_S1024_S1024_S4096_d0 : Shape.Concatenates [S1024, S1024, S1024, S1024] S4096 0
  shapeCasts_S4096_S1x4096 : S4096.ShapeCasts S1x4096
  concatenates_S1024_S1024_S2048_d0 : Shape.Concatenates [S1024, S1024] S2048 0
  shapeCasts_S2048_S1x2048 : S2048.ShapeCasts S1x2048
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S256x2048_S256x2048_0_0 : ∀ a, (![0, 0] : Fin 2 → Nat) a + S256x2048.size a ≤ S256x2048.size a
  h_S256x2048 : 0 < S256x2048.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  slices_S256x2048_o0_0_S256x1024 : S256x2048.Slices ![0, 0] S256x1024
  slices_S256x2048_o0_1024_S256x1024 : S256x2048.Slices ![0, 1024] S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x4096_S256x4096_1_0_0_1_n_n_wf : DotDims.WF S256x1024 S1024x4096 S256x4096 [1] [0] [0] [1] [] []
  dot_S256x1024_S1024x2048_S256x2048_1_0_0_1_n_n_wf : DotDims.WF S256x1024 S1024x2048 S256x2048 [1] [0] [0] [1] [] []
  dot_S256x2048_S2048x4096_S256x4096_1_0_0_1_n_n_wf : DotDims.WF S256x2048 S2048x4096 S256x4096 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S16384x2048.size a
  hwx0_2 : ∀ i : grid0.Coords, EltTy.bits .f32 = 32 ∨ (Rect.block (s := S16384x2048) S256x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x4096.size a ≤ S2048x4096.size a
  hwx0_5 : ∀ i : grid0.Coords, EltTy.bits .bf16 = 32 ∨ (Rect.block (s := S2048x4096) S2048x4096.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x4096.size a ≤ S1x4096.size a
  hwx0_8 : ∀ i : grid0.Coords, EltTy.bits .f32 = 32 ∨ (Rect.block (s := S1x4096) S1x4096.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x4096.size a ≤ S1x4096.size a
  hwx0_10 : ∀ i : grid0.Coords, EltTy.bits .f32 = 32 ∨ (Rect.block (s := S1x4096) S1x4096.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1024.size a ≤ S1x1024.size a
  hwx0_12 : ∀ i : grid0.Coords, EltTy.bits .f32 = 32 ∨ (Rect.block (s := S1x1024) S1x1024.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S256x1024.size a ≤ S16384x1024.size a
  hwx0_13 : ∀ i : grid0.Coords, EltTy.bits .f32 = 32 ∨ (Rect.block (s := S16384x1024) S256x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S256x1024.size a ≤ S16384x1024.size a
  hwx0_14 : ∀ i : grid0.Coords, EltTy.bits .f32 = 32 ∨ (Rect.block (s := S16384x1024) S256x1024.size (cc0_transform_14 i) (hinb0_14 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x4096.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v13) S1x4096.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v14) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v15) S1x1024.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v16_0) S256x1024.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v16_1) S256x1024.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S16384x2048 : Shape := ⟨2, ![16384, 2048]⟩
abbrev S1024x1024 : Shape := ⟨2, ![1024, 1024]⟩
abbrev S1024 : Shape := ⟨1, ![1024]⟩
abbrev S2048x1024 : Shape := ⟨2, ![2048, 1024]⟩
abbrev S1x1024 : Shape := ⟨2, ![1, 1024]⟩
abbrev S_ : Shape := ⟨0, ![]⟩

abbrev nBuf : Space → Nat
  | .hbm => 110
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S2048x1024, .f32⟩
  | .hbm, ⟨16, _⟩ => ⟨S1024, .f32⟩
  | .hbm, ⟨17, _⟩ => ⟨S2048x1024, .f32⟩
  | .hbm, ⟨18, _⟩ => ⟨S1024, .f32⟩
  | .hbm, ⟨19, _⟩ => ⟨S2048x1024, .f32⟩
  | .hbm, ⟨20, _⟩ => ⟨S1024, .f32⟩
  | .hbm, ⟨21, _⟩ => ⟨S1024x1024, .f32⟩
  | .hbm, ⟨22, _⟩ => ⟨S1024, .f32⟩
  | .hbm, ⟨23, _⟩ => ⟨S1024x1024, .f32⟩
  | .hbm, ⟨24, _⟩ => ⟨S1024, .f32⟩
  | .hbm, ⟨25, _⟩ => ⟨S2048x1024, .f32⟩
  | .hbm, ⟨26, _⟩ => ⟨S1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S16384x1024, .f32⟩
  | .hbm, ⟨43, _⟩ => ⟨S_, .f32⟩
  | .hbm, ⟨44, _⟩ => ⟨S16384x1024, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S1x1024, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | .hbm, ⟨65, _⟩ => ⟨S_, .f32⟩
  | .hbm, ⟨66, _⟩ => ⟨S16384x1024, .f32⟩
  | .hbm, ⟨67, _⟩ => ⟨S16384x1024, .f32⟩
  | .hbm, ⟨68, _⟩ => ⟨S_, .f32⟩
  | .hbm, ⟨69, _⟩ => ⟨S16384x1024, .f32⟩
  | .hbm, ⟨70, _⟩ => ⟨S16384x1024, .f32⟩
  | .hbm, ⟨71, _⟩ => ⟨S16384x1024, .f32⟩
  | .hbm, ⟨72, _⟩ => ⟨S1x1024, .f32⟩
  | .hbm, ⟨73, _⟩ => ⟨S16384x1024, .f32⟩
  | .hbm, ⟨74, _⟩ => ⟨S16384x1024, .f32⟩
  | .hbm, ⟨75, _⟩ => ⟨S16384x1024, .f32⟩
  | .hbm, ⟨76, _⟩ => ⟨S16384x1024, .f32⟩
  | .hbm, ⟨77, _⟩ => ⟨S1x1024, .f32⟩
  | .hbm, ⟨78, _⟩ => ⟨S16384x1024, .f32⟩
  | .hbm, ⟨79, _⟩ => ⟨S16384x1024, .f32⟩
  | .hbm, ⟨80, _⟩ => ⟨S16384x1024, .f32⟩
  | .hbm, ⟨81, _⟩ => ⟨S16384x1024, .f32⟩
  | .hbm, ⟨82, _⟩ => ⟨S1x1024, .f32⟩
  | .hbm, ⟨83, _⟩ => ⟨S16384x1024, .f32⟩
  | .hbm, ⟨84, _⟩ => ⟨S16384x1024, .f32⟩
  | .hbm, ⟨85, _⟩ => ⟨S16384x1024, .f32⟩
  | .hbm, ⟨86, _⟩ => ⟨S16384x1024, .f32⟩
  | .hbm, ⟨87, _⟩ => ⟨S_, .f32⟩
  | .hbm, ⟨88, _⟩ => ⟨S16384x1024, .f32⟩
  | .hbm, ⟨89, _⟩ => ⟨S16384x1024, .f32⟩
  | .hbm, ⟨90, _⟩ => ⟨S16384x1024, .f32⟩
  | .hbm, ⟨91, _⟩ => ⟨S16384x1024, .f32⟩
  | .hbm, ⟨92, _⟩ => ⟨S16384x1024, .f32⟩
  | .hbm, ⟨93, _⟩ => ⟨S16384x1024, .f32⟩
  | .hbm, ⟨94, _⟩ => ⟨S1x1024, .f32⟩
  | .hbm, ⟨95, _⟩ => ⟨S16384x1024, .f32⟩
  | .hbm, ⟨96, _⟩ => ⟨S16384x1024, .f32⟩
  | .hbm, ⟨97, _⟩ => ⟨S16384x1024, .f32⟩
  | .hbm, ⟨98, _⟩ => ⟨S1x1024, .f32⟩
  | .hbm, ⟨99, _⟩ => ⟨S16384x1024, .f32⟩
  | .hbm, ⟨100, _⟩ => ⟨S16384x1024, .f32⟩
  | .hbm, ⟨101, _⟩ => ⟨S16384x1024, .f32⟩
  | .hbm, ⟨102, _⟩ => ⟨S16384x1024, .f32⟩
  | .hbm, ⟨103, _⟩ => ⟨S1x1024, .f32⟩
  | .hbm, ⟨104, _⟩ => ⟨S16384x1024, .f32⟩
  | .hbm, ⟨105, _⟩ => ⟨S16384x1024, .f32⟩
  | .hbm, ⟨106, _⟩ => ⟨S16384x1024, .f32⟩
  | .hbm, ⟨107, _⟩ => ⟨S_, .f32⟩
  | .hbm, ⟨108, _⟩ => ⟨S16384x1024, .f32⟩
  | .hbm, ⟨109, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst : Ref sig .tc := ⟨.hbm, 43, rfl⟩
abbrev main_v16 : Ref sig .tc := ⟨.hbm, 44, rfl⟩
abbrev main_v17 : Ref sig .tc := ⟨.hbm, 45, rfl⟩
abbrev main_cst_0 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_1 : Ref sig .tc := ⟨.hbm, 65, rfl⟩
abbrev main_v36 : Ref sig .tc := ⟨.hbm, 66, rfl⟩
abbrev main_v37 : Ref sig .tc := ⟨.hbm, 67, rfl⟩
abbrev main_cst_2 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_3 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call0_cst : Ref sig .tc := ⟨.hbm, 107, rfl⟩
abbrev main_call0_v0 : Ref sig .tc := ⟨.hbm, 108, rfl⟩
abbrev main_v75 : Ref sig .tc := ⟨.hbm, 109, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_0_0_1_n_n_wf : DotDims.WF S16384x1024 S1024x1024 S16384x1024 [1] [0] [0] [1] [] []
  dot_S16384x2048_S2048x1024_S16384x1024_1_0_0_1_n_n_wf : DotDims.WF S16384x2048 S2048x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def dot_S16384x2048_S2048x1024_S16384x1024_1_0_0_1_n_n : DotDims S16384x2048 S2048x1024 S16384x1024 where
  lhsContracting := [1]
  rhsContracting := [0]
  lhsNonContracting := [0]
  rhsNonContracting := [1]
  lhsBatch := []
  rhsBatch := []
  wf := dot_S16384x2048_S2048x1024_S16384x1024_1_0_0_1_n_n_wf

class Facts : Prop extends Facts₀ where

variable [Facts]
-- ==== Proof.EntryBits.lean ====
/-
  The program up to its one region. Before the region sixteen host operations build the fused operands: the
  four input-side weight matrices laid side by side into one 1024 × 4096 matrix, the two state-side ones into
  1024 × 2048, the four context-side ones into 2048 × 4096, each then narrowed; the two remaining weight matrices
  narrowed; the matching bias vectors laid end to end and recast as one-row matrices. None of these operations writes
  an argument array, so the region finds every argument as launched, and a window's block at a grid point is read
  off the contents the region finds. From a run that ends with every pipeline array at what the proof data computes
  and every other buffer as the region found it, the twenty-seven argument arrays end unchanged: three of them are
  staged inputs of the region, the other twenty-four are touched by no window.
-/
import proofs.«118329_j35837207118456_2_alg».proof.Proof.Gen.Kernel.Launch
import proofs.«118329_j35837207118456_2_alg».proof.Proof.Gen.Kernel.Skeleton
import proofs.«118329_j35837207118456_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The contents the region finds -/

/-- Core `c`'s buffers when the region is entered: the launch contents carried through the host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 22: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 23: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 24: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 25: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 26: the region finds it as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, whether fetched there or kept from the point
    before (its block index has then not moved), for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, whether fetched there or kept from the point
    before (its block index has then not moved), for any proof data over these arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, whether fetched there or kept from the point
    before (its block index has then not moved), for any proof data over these arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, whether fetched there or kept from the point
    before (its block index has then not moved), for any proof data over these arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, whether fetched there or kept from the point
    before (its block index has then not moved), for any proof data over these arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, whether fetched there or kept from the point
    before (its block index has then not moved), for any proof data over these arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, whether fetched there or kept from the point
    before (its block index has then not moved), for any proof data over these arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, whether fetched there or kept from the point
    before (its block index has then not moved), for any proof data over these arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, whether fetched there or kept from the point
    before (its block index has then not moved), for any proof data over these arrays whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, whether fetched there or kept from the point
    before (its block index has then not moved), for any proof data over these arrays whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, whether fetched there or kept from the point
    before (its block index has then not moved), for any proof data over these arrays whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, whether fetched there or kept from the point
    before (its block index has then not moved), for any proof data over these arrays whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block at every point, whether fetched there or kept from the point
    before (its block index has then not moved), for any proof data over these arrays whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- A final state in which every pipeline array is at the proof data's value and every other buffer as the region
    found it has the twenty-seven argument arrays as launched: the three staged inputs keep their entry contents, the
    others are no window's array; each was found as launched. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c)⟩

/-- The same as the post of a run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => kept_of m dats hA r h c) h

end Cert.Kernel.Hand

end
-- ==== Proof.BodyBits.lean ====
/-
  One grid point of the cell. The body reads its thirteen input buffers whole — a block of 256 rows of each of the
  three activations, the three fused weight matrices, the two single weight matrices and the five bias rows — and
  stores two whole blocks: the new state and the output layer. Each stored value is one pure term of the values read;
  a buffer written once through its whole rectangle holds exactly that term. The two output buffers are also read
  before they are written, and what was read is not used.
-/
import proofs.«118329_j35837207118456_2_alg».proof.Proof.EntryBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The whole rectangle of each buffer shape -/

abbrev rIn : Rect S256x1024 := Rect.unit (s := S256x1024) ![0, 0] S256x1024.size inb_S256x1024_S256x1024_0_0
abbrev rCtx : Rect S256x2048 := Rect.unit (s := S256x2048) ![0, 0] S256x2048.size inb_S256x2048_S256x2048_0_0
abbrev rWin : Rect S1024x4096 := Rect.unit (s := S1024x4096) ![0, 0] S1024x4096.size inb_S1024x4096_S1024x4096_0_0
abbrev rWst : Rect S1024x2048 := Rect.unit (s := S1024x2048) ![0, 0] S1024x2048.size inb_S1024x2048_S1024x2048_0_0
abbrev rWctx : Rect S2048x4096 := Rect.unit (s := S2048x4096) ![0, 0] S2048x4096.size inb_S2048x4096_S2048x4096_0_0
abbrev rSq : Rect S1024x1024 := Rect.unit (s := S1024x1024) ![0, 0] S1024x1024.size inb_S1024x1024_S1024x1024_0_0
abbrev rB4 : Rect S1x4096 := Rect.unit (s := S1x4096) ![0, 0] S1x4096.size inb_S1x4096_S1x4096_0_0
abbrev rB2 : Rect S1x2048 := Rect.unit (s := S1x2048) ![0, 0] S1x2048.size inb_S1x2048_S1x2048_0_0
abbrev rB1 : Rect S1x1024 := Rect.unit (s := S1x1024) ![0, 0] S1x1024.size inb_S1x1024_S1x1024_0_0

/-! ## What the body leaves in each output buffer -/

/-- The new state's block, as a term of the thirteen input blocks. -/
def stateTerm (x0 : Vec F S256x1024 .f32) (x1 : Vec F S256x1024 .f32) (x2 : Vec F S256x2048 .f32) (x3 : Vec F S1024x4096 .bf16) (x4 : Vec F S1024x2048 .bf16) (x5 : Vec F S2048x4096 .bf16) (x6 : Vec F S1024x1024 .bf16) (x7 : Vec F S1024x1024 .bf16) (x8 : Vec F S1x4096 .f32) (x9 : Vec F S1x2048 .f32) (x10 : Vec F S1x4096 .f32) (x11 : Vec F S1x1024 .f32) (x12 : Vec F S1x1024 .f32) : FVec F S256x1024 .f32 :=
  k0_pay1 (View.ld x1 rIn) (k0_pay6 (View.ld x0 rIn) (View.ld x3 rWin) (View.ld x8 rB4)) (k0_pay7 (View.ld x0 rIn) (View.ld x3 rWin) (View.ld x8 rB4)) (k0_pay9 (View.ld x1 rIn) (View.ld x4 rWst) (View.ld x9 rB2)) (k0_pay10 (View.ld x2 rCtx) (View.ld x5 rWctx) (View.ld x10 rB4)) (k0_pay11 (View.ld x2 rCtx) (View.ld x5 rWctx) (View.ld x10 rB4)) (k0_pay12 (View.ld x2 rCtx) (View.ld x5 rWctx) (View.ld x10 rB4)) (k0_pay14 (View.ld x0 rIn) (View.ld x1 rIn) (View.ld x3 rWin) (View.ld x8 rB4) (View.ld x4 rWst) (View.ld x9 rB2)) (View.ld x6 rSq) (View.ld x11 rB1)

/-- The output layer's block, as a term of the thirteen input blocks. -/
def layerTerm (x0 : Vec F S256x1024 .f32) (x1 : Vec F S256x1024 .f32) (x2 : Vec F S256x2048 .f32) (x3 : Vec F S1024x4096 .bf16) (x4 : Vec F S1024x2048 .bf16) (x5 : Vec F S2048x4096 .bf16) (x6 : Vec F S1024x1024 .bf16) (x7 : Vec F S1024x1024 .bf16) (x8 : Vec F S1x4096 .f32) (x9 : Vec F S1x2048 .f32) (x10 : Vec F S1x4096 .f32) (x11 : Vec F S1x1024 .f32) (x12 : Vec F S1x1024 .f32) : FVec F S256x1024 .f32 :=
  k0_pay2 (View.ld x1 rIn) (k0_pay6 (View.ld x0 rIn) (View.ld x3 rWin) (View.ld x8 rB4)) (k0_pay7 (View.ld x0 rIn) (View.ld x3 rWin) (View.ld x8 rB4)) (k0_pay8 (View.ld x0 rIn) (View.ld x3 rWin) (View.ld x8 rB4)) (k0_pay9 (View.ld x1 rIn) (View.ld x4 rWst) (View.ld x9 rB2)) (k0_pay10 (View.ld x2 rCtx) (View.ld x5 rWctx) (View.ld x10 rB4)) (k0_pay11 (View.ld x2 rCtx) (View.ld x5 rWctx) (View.ld x10 rB4)) (k0_pay12 (View.ld x2 rCtx) (View.ld x5 rWctx) (View.ld x10 rB4)) (k0_pay13 (View.ld x2 rCtx) (View.ld x5 rWctx) (View.ld x10 rB4)) (k0_pay14 (View.ld x0 rIn) (View.ld x1 rIn) (View.ld x3 rWin) (View.ld x8 rB4) (View.ld x4 rWst) (View.ld x9 rB2)) (View.ld x6 rSq) (View.ld x11 rB1) (View.ld x7 rSq) (View.ld x12 rB1)

/-- Window 13's buffer after the body: its one store, through the whole rectangle. -/
def out0_13 (x0 : Vec F S256x1024 .f32) (x1 : Vec F S256x1024 .f32) (x2 : Vec F S256x2048 .f32) (x3 : Vec F S1024x4096 .bf16) (x4 : Vec F S1024x2048 .bf16) (x5 : Vec F S2048x4096 .bf16) (x6 : Vec F S1024x1024 .bf16) (x7 : Vec F S1024x1024 .bf16) (x8 : Vec F S1x4096 .f32) (x9 : Vec F S1x2048 .f32) (x10 : Vec F S1x4096 .f32) (x11 : Vec F S1x1024 .f32) (x12 : Vec F S1x1024 .f32) : Vec F S256x1024 .f32 :=
  View.canon [⟨rIn, stateTerm x0 x1 x2 x3 x4 x5 x6 x7 x8 x9 x10 x11 x12⟩]

/-- Window 14's buffer after the body: its one store, through the whole rectangle. -/
def out0_14 (x0 : Vec F S256x1024 .f32) (x1 : Vec F S256x1024 .f32) (x2 : Vec F S256x2048 .f32) (x3 : Vec F S1024x4096 .bf16) (x4 : Vec F S1024x2048 .bf16) (x5 : Vec F S2048x4096 .bf16) (x6 : Vec F S1024x1024 .bf16) (x7 : Vec F S1024x1024 .bf16) (x8 : Vec F S1x4096 .f32) (x9 : Vec F S1x2048 .f32) (x10 : Vec F S1x4096 .f32) (x11 : Vec F S1x1024 .f32) (x12 : Vec F S1x1024 .f32) : Vec F S256x1024 .f32 :=
  View.canon [⟨rIn, layerTerm x0 x1 x2 x3 x4 x5 x6 x7 x8 x9 x10 x11 x12⟩]

/-- One store through the whole rectangle covers the buffer. -/
theorem cover_whole (p0 : Vec F S256x1024 .f32) (y : S256x1024.Idx) :
    ∃ pc ∈ ([⟨rIn, p0⟩] : List (View.Piece (Elt F) S256x1024 .f32)), y ∈ pc.1.set :=
  View.cover_of_tiled [⟨rIn, p0⟩] S256x1024.size (by rfl) y

/-! ## The body's triple -/

set_option maxHeartbeats 4000000 in
/-- On whole buffers, the inputs' at contents `xW` and the outputs' at anything, the body runs to the continuation with
    the inputs' buffers as they were and the two outputs' at their terms of the inputs. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x2048 .f32) (harg3 : arg3.IsWhole) (arg4 : Memref sig .tc .vmem S1024x4096 .bf16) (harg4 : arg4.IsWhole) (arg5 : Memref sig .tc .vmem S1024x2048 .bf16) (harg5 : arg5.IsWhole) (arg6 : Memref sig .tc .vmem S2048x4096 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x4096 .f32) (harg9 : arg9.IsWhole) (arg10 : Memref sig .tc .vmem S1x2048 .f32) (harg10 : arg10.IsWhole) (arg11 : Memref sig .tc .vmem S1x4096 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S256x1024 .f32) (harg15 : arg15.IsWhole)
    (x0 : Vec F S256x1024 .f32) (x1 : Vec F S256x1024 .f32) (x2 : Vec F S256x2048 .f32) (x3 : Vec F S1024x4096 .bf16) (x4 : Vec F S1024x2048 .bf16) (x5 : Vec F S2048x4096 .bf16) (x6 : Vec F S1024x1024 .bf16) (x7 : Vec F S1024x1024 .bf16) (x8 : Vec F S1x4096 .f32) (x9 : Vec F S1x2048 .f32) (x10 : Vec F S1x4096 .f32) (x11 : Vec F S1x1024 .f32) (x12 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover_whole _)
  iexists _; isplitr
  swap; · iexact H14
  ipureintro
  exact View.read_writes_eq_canon _ _ _ (cover_whole _)

end Cert.Kernel.Hand

end
-- ==== Proof.RunBits.lean ====
/-
  The region run to its end. The proof data: every window's array as the region finds it; after the body at a point
  each input's buffer still at its block there, each output's at its term of the thirteen input blocks; nothing else
  is kept between points. At every point the inputs' buffers hold their blocks, so the body's triple applies, and the
  launch carries the triple over the sixty-four points: every execution ends, faults nowhere, with each pipeline array
  at the data's value and every other buffer as the region found it — in particular with the arguments unchanged.
-/
import proofs.«118329_j35837207118456_2_alg».proof.Proof.BodyBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

/-- The data's arrays are the contents the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, faulting nowhere, with every pipeline array at the value the data
    computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end with its twenty-seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

end Cert.Kernel.Hand

end
-- ==== Proof.EntryIdeal.lean ====
/-
  The program up to its one region. Before the region sixteen host operations build the fused operands: the
  four input-side weight matrices laid side by side into one 1024 × 4096 matrix, the two state-side ones into
  1024 × 2048, the four context-side ones into 2048 × 4096, each then narrowed; the two remaining weight matrices
  narrowed; the matching bias vectors laid end to end and recast as one-row matrices. None of these operations writes
  an argument array, so the region finds every argument as launched, and a window's block at a grid point is read
  off the contents the region finds. From a run that ends with every pipeline array at what the proof data computes
  and every other buffer as the region found it, the twenty-seven argument arrays end unchanged: three of them are
  staged inputs of the region, the other twenty-four are touched by no window.
-/
import proofs.«118329_j35837207118456_2_alg».proof.Proof.Gen.KernelIdeal.Launch
import proofs.«118329_j35837207118456_2_alg».proof.Proof.Gen.KernelIdeal.Skeleton
import proofs.«118329_j35837207118456_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The contents the region finds -/

/-- Core `c`'s buffers when the region is entered: the launch contents carried through the host operations. -/
abbrev V (c : Dev nD) (b : Ref sig .tc) : Buf (Elt F) ((c : Thread nD τ).loc b) :=
  StableHlo.after hostOps0 (fun b => m (c, b)) b

/-- The host operations allocate nothing. -/
theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 18: the region finds it as launched. -/
theorem V_main_arg18 (c : Dev nD) : V m c main_arg18 = m ((c : Thread nD τ).loc main_arg18) :=
  StableHlo.after_of_forall_not_mem (b := Proc.devRef .tc main_arg18) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 19: the region finds it as launched. -/
theorem V_main_arg19 (c : Dev nD) : V m c main_arg19 = m ((c : Thread nD τ).loc main_arg19) :=
  StableHlo.after_of_forall_not_mem (b := Proc.devRef .tc main_arg19) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 20: the region finds it as launched. -/
theorem V_main_arg20 (c : Dev nD) : V m c main_arg20 = m ((c : Thread nD τ).loc main_arg20) :=
  StableHlo.after_of_forall_not_mem (b := Proc.devRef .tc main_arg20) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 21: the region finds it as launched. -/
theorem V_main_arg21 (c : Dev nD) : V m c main_arg21 = m ((c : Thread nD τ).loc main_arg21) :=
  StableHlo.after_of_forall_not_mem (b := Proc.devRef .tc main_arg21) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 22: the region finds it as launched. -/
theorem V_main_arg22 (c : Dev nD) : V m c main_arg22 = m ((c : Thread nD τ).loc main_arg22) :=
  StableHlo.after_of_forall_not_mem (b := Proc.devRef .tc main_arg22) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 23: the region finds it as launched. -/
theorem V_main_arg23 (c : Dev nD) : V m c main_arg23 = m ((c : Thread nD τ).loc main_arg23) :=
  StableHlo.after_of_forall_not_mem (b := Proc.devRef .tc main_arg23) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 24: the region finds it as launched. -/
theorem V_main_arg24 (c : Dev nD) : V m c main_arg24 = m ((c : Thread nD τ).loc main_arg24) :=
  StableHlo.after_of_forall_not_mem (b := Proc.devRef .tc main_arg24) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 25: the region finds it as launched. -/
theorem V_main_arg25 (c : Dev nD) : V m c main_arg25 = m ((c : Thread nD τ).loc main_arg25) :=
  StableHlo.after_of_forall_not_mem (b := Proc.devRef .tc main_arg25) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))
/-- No host operation writes argument 26: the region finds it as launched. -/
theorem V_main_arg26 (c : Dev nD) : V m c main_arg26 = m ((c : Thread nD τ).loc main_arg26) :=
  StableHlo.after_of_forall_not_mem (b := Proc.devRef .tc main_arg26) _ _ (List.forall_iff_forall_mem.mp (by
    simp only [hostOps0, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current buffer holds its block at every point, whether fetched there or kept from the point
    before (its block index has then not moved), for any proof data over these arrays whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current buffer holds its block at every point, whether fetched there or kept from the point
    before (its block index has then not moved), for any proof data over these arrays whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current buffer holds its block at every point, whether fetched there or kept from the point
    before (its block index has then not moved), for any proof data over these arrays whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current buffer holds its block at every point, whether fetched there or kept from the point
    before (its block index has then not moved), for any proof data over these arrays whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current buffer holds its block at every point, whether fetched there or kept from the point
    before (its block index has then not moved), for any proof data over these arrays whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current buffer holds its block at every point, whether fetched there or kept from the point
    before (its block index has then not moved), for any proof data over these arrays whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current buffer holds its block at every point, whether fetched there or kept from the point
    before (its block index has then not moved), for any proof data over these arrays whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current buffer holds its block at every point, whether fetched there or kept from the point
    before (its block index has then not moved), for any proof data over these arrays whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current buffer holds its block at every point, whether fetched there or kept from the point
    before (its block index has then not moved), for any proof data over these arrays whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current buffer holds its block at every point, whether fetched there or kept from the point
    before (its block index has then not moved), for any proof data over these arrays whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current buffer holds its block at every point, whether fetched there or kept from the point
    before (its block index has then not moved), for any proof data over these arrays whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current buffer holds its block at every point, whether fetched there or kept from the point
    before (its block index has then not moved), for any proof data over these arrays whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current buffer holds its block at every point, whether fetched there or kept from the point
    before (its block index has then not moved), for any proof data over these arrays whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-! ## The arguments end unchanged -/

/-- A final state in which every pipeline array is at the proof data's value and every other buffer as the region
    found it has the twenty-seven argument arrays as launched: the three staged inputs keep their entry contents, the
    others are no window's array; each was found as launched. -/
theorem kept_of (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c),
      ((h c).2 main_arg23 (Pipeline.mem_restRefs_of main_arg23 (by decide) (by decide))).trans (V_main_arg23 m c),
      ((h c).2 main_arg24 (Pipeline.mem_restRefs_of main_arg24 (by decide) (by decide))).trans (V_main_arg24 m c),
      ((h c).2 main_arg25 (Pipeline.mem_restRefs_of main_arg25 (by decide) (by decide))).trans (V_main_arg25 m c),
      ((h c).2 main_arg26 (Pipeline.mem_restRefs_of main_arg26 (by decide) (by decide))).trans (V_main_arg26 m c)⟩

/-- The same as the post of a run. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  (θ_run defs _ _).mono (fun r h c => kept_of m dats hA r h c) h

end Cert.KernelIdeal.Hand

end
-- ==== Proof.BodyIdeal.lean ====
/-
  One grid point of the cell. The body reads its thirteen input buffers whole — a block of 256 rows of each of the
  three activations, the three fused weight matrices, the two single weight matrices and the five bias rows — and
  stores two whole blocks: the new state and the output layer. Each stored value is one pure term of the values read;
  a buffer written once through its whole rectangle holds exactly that term. The two output buffers are also read
  before they are written, and what was read is not used.
-/
import proofs.«118329_j35837207118456_2_alg».proof.Proof.EntryIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The whole rectangle of each buffer shape -/

abbrev rIn : Rect S256x1024 := Rect.unit (s := S256x1024) ![0, 0] S256x1024.size inb_S256x1024_S256x1024_0_0
abbrev rCtx : Rect S256x2048 := Rect.unit (s := S256x2048) ![0, 0] S256x2048.size inb_S256x2048_S256x2048_0_0
abbrev rWin : Rect S1024x4096 := Rect.unit (s := S1024x4096) ![0, 0] S1024x4096.size inb_S1024x4096_S1024x4096_0_0
abbrev rWst : Rect S1024x2048 := Rect.unit (s := S1024x2048) ![0, 0] S1024x2048.size inb_S1024x2048_S1024x2048_0_0
abbrev rWctx : Rect S2048x4096 := Rect.unit (s := S2048x4096) ![0, 0] S2048x4096.size inb_S2048x4096_S2048x4096_0_0
abbrev rSq : Rect S1024x1024 := Rect.unit (s := S1024x1024) ![0, 0] S1024x1024.size inb_S1024x1024_S1024x1024_0_0
abbrev rB4 : Rect S1x4096 := Rect.unit (s := S1x4096) ![0, 0] S1x4096.size inb_S1x4096_S1x4096_0_0
abbrev rB2 : Rect S1x2048 := Rect.unit (s := S1x2048) ![0, 0] S1x2048.size inb_S1x2048_S1x2048_0_0
abbrev rB1 : Rect S1x1024 := Rect.unit (s := S1x1024) ![0, 0] S1x1024.size inb_S1x1024_S1x1024_0_0

/-! ## What the body leaves in each output buffer -/

/-- The new state's block, as a term of the thirteen input blocks. -/
def stateTerm (x0 : Vec F S256x1024 .f32) (x1 : Vec F S256x1024 .f32) (x2 : Vec F S256x2048 .f32) (x3 : Vec F S1024x4096 .bf16) (x4 : Vec F S1024x2048 .bf16) (x5 : Vec F S2048x4096 .bf16) (x6 : Vec F S1024x1024 .bf16) (x7 : Vec F S1024x1024 .bf16) (x8 : Vec F S1x4096 .f32) (x9 : Vec F S1x2048 .f32) (x10 : Vec F S1x4096 .f32) (x11 : Vec F S1x1024 .f32) (x12 : Vec F S1x1024 .f32) : FVec F S256x1024 .f32 :=
  k0_pay1 (View.ld x1 rIn) (k0_pay6 (View.ld x0 rIn) (View.ld x3 rWin) (View.ld x8 rB4)) (k0_pay7 (View.ld x0 rIn) (View.ld x3 rWin) (View.ld x8 rB4)) (k0_pay9 (View.ld x1 rIn) (View.ld x4 rWst) (View.ld x9 rB2)) (k0_pay10 (View.ld x2 rCtx) (View.ld x5 rWctx) (View.ld x10 rB4)) (k0_pay11 (View.ld x2 rCtx) (View.ld x5 rWctx) (View.ld x10 rB4)) (k0_pay12 (View.ld x2 rCtx) (View.ld x5 rWctx) (View.ld x10 rB4)) (k0_pay14 (View.ld x0 rIn) (View.ld x1 rIn) (View.ld x3 rWin) (View.ld x8 rB4) (View.ld x4 rWst) (View.ld x9 rB2)) (View.ld x6 rSq) (View.ld x11 rB1)

/-- The output layer's block, as a term of the thirteen input blocks. -/
def layerTerm (x0 : Vec F S256x1024 .f32) (x1 : Vec F S256x1024 .f32) (x2 : Vec F S256x2048 .f32) (x3 : Vec F S1024x4096 .bf16) (x4 : Vec F S1024x2048 .bf16) (x5 : Vec F S2048x4096 .bf16) (x6 : Vec F S1024x1024 .bf16) (x7 : Vec F S1024x1024 .bf16) (x8 : Vec F S1x4096 .f32) (x9 : Vec F S1x2048 .f32) (x10 : Vec F S1x4096 .f32) (x11 : Vec F S1x1024 .f32) (x12 : Vec F S1x1024 .f32) : FVec F S256x1024 .f32 :=
  k0_pay2 (View.ld x1 rIn) (k0_pay6 (View.ld x0 rIn) (View.ld x3 rWin) (View.ld x8 rB4)) (k0_pay7 (View.ld x0 rIn) (View.ld x3 rWin) (View.ld x8 rB4)) (k0_pay8 (View.ld x0 rIn) (View.ld x3 rWin) (View.ld x8 rB4)) (k0_pay9 (View.ld x1 rIn) (View.ld x4 rWst) (View.ld x9 rB2)) (k0_pay10 (View.ld x2 rCtx) (View.ld x5 rWctx) (View.ld x10 rB4)) (k0_pay11 (View.ld x2 rCtx) (View.ld x5 rWctx) (View.ld x10 rB4)) (k0_pay12 (View.ld x2 rCtx) (View.ld x5 rWctx) (View.ld x10 rB4)) (k0_pay13 (View.ld x2 rCtx) (View.ld x5 rWctx) (View.ld x10 rB4)) (k0_pay14 (View.ld x0 rIn) (View.ld x1 rIn) (View.ld x3 rWin) (View.ld x8 rB4) (View.ld x4 rWst) (View.ld x9 rB2)) (View.ld x6 rSq) (View.ld x11 rB1) (View.ld x7 rSq) (View.ld x12 rB1)

/-- Window 13's buffer after the body: its one store, through the whole rectangle. -/
def out0_13 (x0 : Vec F S256x1024 .f32) (x1 : Vec F S256x1024 .f32) (x2 : Vec F S256x2048 .f32) (x3 : Vec F S1024x4096 .bf16) (x4 : Vec F S1024x2048 .bf16) (x5 : Vec F S2048x4096 .bf16) (x6 : Vec F S1024x1024 .bf16) (x7 : Vec F S1024x1024 .bf16) (x8 : Vec F S1x4096 .f32) (x9 : Vec F S1x2048 .f32) (x10 : Vec F S1x4096 .f32) (x11 : Vec F S1x1024 .f32) (x12 : Vec F S1x1024 .f32) : Vec F S256x1024 .f32 :=
  View.canon [⟨rIn, stateTerm x0 x1 x2 x3 x4 x5 x6 x7 x8 x9 x10 x11 x12⟩]

/-- Window 14's buffer after the body: its one store, through the whole rectangle. -/
def out0_14 (x0 : Vec F S256x1024 .f32) (x1 : Vec F S256x1024 .f32) (x2 : Vec F S256x2048 .f32) (x3 : Vec F S1024x4096 .bf16) (x4 : Vec F S1024x2048 .bf16) (x5 : Vec F S2048x4096 .bf16) (x6 : Vec F S1024x1024 .bf16) (x7 : Vec F S1024x1024 .bf16) (x8 : Vec F S1x4096 .f32) (x9 : Vec F S1x2048 .f32) (x10 : Vec F S1x4096 .f32) (x11 : Vec F S1x1024 .f32) (x12 : Vec F S1x1024 .f32) : Vec F S256x1024 .f32 :=
  View.canon [⟨rIn, layerTerm x0 x1 x2 x3 x4 x5 x6 x7 x8 x9 x10 x11 x12⟩]

/-- One store through the whole rectangle covers the buffer. -/
theorem cover_whole (p0 : Vec F S256x1024 .f32) (y : S256x1024.Idx) :
    ∃ pc ∈ ([⟨rIn, p0⟩] : List (View.Piece (Elt F) S256x1024 .f32)), y ∈ pc.1.set :=
  View.cover_of_tiled [⟨rIn, p0⟩] S256x1024.size (by rfl) y

/-! ## The body's triple -/

set_option maxHeartbeats 4000000 in
/-- On whole buffers, the inputs' at contents `xW` and the outputs' at anything, the body runs to the continuation with
    the inputs' buffers as they were and the two outputs' at their terms of the inputs. -/
theorem sound_kernel (c : Dev nD) (E : Set ℕ) (i : grid0.Coords) (arg1 : Memref sig .tc .vmem S256x1024 .f32) (harg1 : arg1.IsWhole) (arg2 : Memref sig .tc .vmem S256x1024 .f32) (harg2 : arg2.IsWhole) (arg3 : Memref sig .tc .vmem S256x2048 .f32) (harg3 : arg3.IsWhole) (arg4 : Memref sig .tc .vmem S1024x4096 .bf16) (harg4 : arg4.IsWhole) (arg5 : Memref sig .tc .vmem S1024x2048 .bf16) (harg5 : arg5.IsWhole) (arg6 : Memref sig .tc .vmem S2048x4096 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x4096 .f32) (harg9 : arg9.IsWhole) (arg10 : Memref sig .tc .vmem S1x2048 .f32) (harg10 : arg10.IsWhole) (arg11 : Memref sig .tc .vmem S1x4096 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S256x1024 .f32) (harg14 : arg14.IsWhole) (arg15 : Memref sig .tc .vmem S256x1024 .f32) (harg15 : arg15.IsWhole)
    (x0 : Vec F S256x1024 .f32) (x1 : Vec F S256x1024 .f32) (x2 : Vec F S256x2048 .f32) (x3 : Vec F S1024x4096 .bf16) (x4 : Vec F S1024x2048 .bf16) (x5 : Vec F S2048x4096 .bf16) (x6 : Vec F S1024x1024 .bf16) (x7 : Vec F S1024x1024 .bf16) (x8 : Vec F S1x4096 .f32) (x9 : Vec F S1x2048 .f32) (x10 : Vec F S1x4096 .f32) (x11 : Vec F S1x1024 .f32) (x12 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out0_13 x0 x1 x2 x3 x4 x5 x6 x7 x8 x9 x10 x11 x12) ∗ owns (c : Thread nD τ) arg15 fullShare (out0_14 x0 x1 x2 x3 x4 x5 x6 x7 x8 x9 x10 x11 x12)) -∗ K ⟨⟩))
      ⊢ wp frame (wpE (defs₀ (F := F)) Variants.none c none) E (cc0__gru_kernel i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0__gru_kernel_eq_skeleton]; unfold cc0__gru_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf0 hf1 hf2 hf3 hf4 hf5 hf6 hf7 hf8 hf9 hf10 hf11 hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _; isplitr
    swap; · iexact H13
    ipureintro
    exact View.read_writes_eq_canon _ _ _ (cover_whole _)
  iexists _; isplitr
  swap; · iexact H14
  ipureintro
  exact View.read_writes_eq_canon _ _ _ (cover_whole _)

end Cert.KernelIdeal.Hand

end
-- ==== Proof.RunIdeal.lean ====
/-
  The region run to its end. The proof data: every window's array as the region finds it; after the body at a point
  each input's buffer still at its block there, each output's at its term of the thirteen input blocks; nothing else
  is kept between points. At every point the inputs' buffers hold their blocks, so the body's triple applies, and the
  launch carries the triple over the sixty-four points: every execution ends, faults nowhere, with each pipeline array
  at the data's value and every other buffer as the region found it — in particular with the arguments unchanged.
-/
import proofs.«118329_j35837207118456_2_alg».proof.Proof.BodyIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    | ⟨14, _⟩ => out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
  Φ _ := Pipeline.ΦA spec0 c
  q _ := fullShare
  owed _ := 0

/-- The data's arrays are the contents the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]
theorem after0_14 (c : Dev nD) (t : Fin cfg0.N) : (dats m 0 c).after 14 t = out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation at a point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t))

set_option maxHeartbeats 2000000 in
/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  iintro ⟨H0, H1, H2, H3, H4, H5, H6, H7, H8, H9, H10, H11, H12, H13, H14⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iexact H14

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, faulting nowhere, with every pipeline array at the value the data
    computes and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs to its end with its twenty-seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  frame_of m ρ (dats m) (A_eq m) (run_main m ρ)

end Cert.KernelIdeal.Hand

end
-- ==== Proof.LibIndex.lean ====
/-
  General lemmas: layout operations of rank-two arrays read at an index, row sums, and the plain matrix
  product as a sum over the shared axis. None mentions a program; all are stated over literal-rank shapes
  `[a, b]` with indices built from coordinates.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LayoutLib

open Idealize.ShloMosaic Idealize.ShloMosaic.ValueIdx

variable {α : Type}

/-- A vector `[a]` cast to a column `[a, 1]` (a sum's `keepdims`) reads, at `(p, u)`, the vector at `p`. -/
theorem shapeCast_col_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, b]` reads, at `(p, c)`, the column at `p`. -/
theorem broadcastTo_col_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a column `[a, 1]` to `[a, b]` (both axes kept in place) reads the column at `p`. -/
theorem broadcastInDim_col_apply {a b : ℕ}
    (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a row `[1, b]` to `[a, b]` reads the row at `c`. -/
theorem broadcastInDim_row_apply {a b : ℕ}
    (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a vector `[b]` to one row `[1, b]` reads the vector at `c`. -/
theorem broadcastInDim_vecRow_apply {b : ℕ}
    (h : (⟨1, ![b]⟩ : Shape).BroadcastsInDim ⟨2, ![1, b]⟩ (![1] : Fin 1 → Fin 2))
    (x : (⟨1, ![b]⟩ : Shape).Idx → α) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a vector `[a]` to one column `[a, 1]` reads the vector at `p`. -/
theorem broadcastInDim_vecCol_apply {a : ℕ}
    (h : (⟨1, ![a]⟩ : Shape).BroadcastsInDim ⟨2, ![a, 1]⟩ (![0] : Fin 1 → Fin 2))
    (x : (⟨1, ![a]⟩ : Shape).Idx → α) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a scalar (rank zero) to any shape reads the scalar everywhere. -/
theorem broadcastInDim_scalar_apply {t : Shape}
    (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun ax => ax.elim0

/-- The source index over row `p` with coordinate `k` on the summed axis is `(p, k)`. -/
theorem lift_row {a b : ℕ} (h : (⟨2, ![a, b]⟩ : Shape).Reduces [(1 : Fin 2)] ⟨1, ![a]⟩) (p : Fin a) (k : Fin b) :
    h.lift (ix1 p) k = ix2 p k :=
  funext fun c => Fin.ext (by match c with | ⟨0, _⟩ => rfl | ⟨1, _⟩ => rfl)

/-- A sum along the rows of `[a, b]`, read at row `p`, is the sum of that row's entries. -/
theorem reduceAdd_row_apply {a b : ℕ} (h : (⟨2, ![a, b]⟩ : Shape).Reduces [(1 : Fin 2)] ⟨1, ![a]⟩)
    (x : (⟨2, ![a, b]⟩ : Shape).Idx → EReal) (p : Fin a) :
    Ideal.reduceAdd h x (ix1 p) = ∑ k : Fin b, x (ix2 p k) := by
  rw [Ideal.reduceAdd_single h x (ix1 p)]
  exact Finset.sum_congr rfl fun k _ => congrArg x (lift_row h p k)

/-- The host's sum along the rows likewise: the initial value plus the row's sum. -/
theorem hostReduceAdd_row_apply {a b : ℕ} (h' : (⟨2, ![a, b]⟩ : Shape).ReducesTo [(1 : Fin 2)] ⟨1, ![a]⟩)
    (h : (⟨2, ![a, b]⟩ : Shape).Reduces [(1 : Fin 2)] ⟨1, ![a]⟩)
    (x : (⟨2, ![a, b]⟩ : Shape).Idx → EReal) (init : EReal) (p : Fin a) :
    Ideal.hostReduceAdd h' x init (ix1 p) = init + ∑ k : Fin b, x (ix2 p k) := by
  rw [Ideal.hostReduceAdd_single h' h x init (ix1 p)]
  exact congrArg (init + ·) (Finset.sum_congr rfl fun k _ => congrArg x (lift_row h p k))

/-- The plain `[M, K] × [K, N]` product's sum over its contraction index, at output `(p, q)`, is the sum over
    `k : Fin K` of the left operand at `(p, k)` times the right operand at `(k, q)`. -/
theorem dot_plain_sum {M K N : ℕ} (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (p : Fin M) (q : Fin N) :
    ∑ k : D.contr.Idx, l (D.lhsIdx (ix2 p q) k) * r (D.rhsIdx (ix2 p q) k) = ∑ k : Fin K, l (ix2 p k) * r (ix2 k q) := by
  subst hD
  rw [← Equiv.sum_comp (contrEquiv1 (DotDims.plain M K N) K rfl rfl).symm]
  refine Finset.sum_congr rfl fun k _ => ?_
  have e := contrEquiv1_symm_val (DotDims.plain M K N) K rfl rfl k
  have hl : (DotDims.plain M K N).lhsIdx (ix2 p q) ((contrEquiv1 (DotDims.plain M K N) K rfl rfl).symm k) = ix2 p k :=
    funext fun c => Fin.ext (by
      match c with
      | ⟨0, _⟩ => rfl
      | ⟨1, _⟩ => exact ((DotDims.plain M K N).lhsIdx_val_of_single (cl := (1 : Fin 2)) rfl _ _).trans e)
  have hr : (DotDims.plain M K N).rhsIdx (ix2 p q) ((contrEquiv1 (DotDims.plain M K N) K rfl rfl).symm k) = ix2 k q :=
    funext fun c => Fin.ext (by
      match c with
      | ⟨0, _⟩ => exact ((DotDims.plain M K N).rhsIdx_val_of_single (cr := (0 : Fin 2)) rfl _ _).trans e
      | ⟨1, _⟩ => rfl)
  rw [hl, hr]

end Cert.LayoutLib

end
-- ==== Proof.LibDense.lean ====
/-
  General lemmas: a matrix product of a rank-two array with a weight matrix, a bias row added to every row, and the
  cut at zero, each as ONE function of its operands at any number of rows — in the spelling a vector unit gives them
  (a product accumulated into a zero splat, a one-row array broadcast down the rows, a maximum against a splat zero)
  and in the spelling a host program gives them (a general dot, a vector broadcast in two steps, a maximum against a
  broadcast scalar). Over the extended reals a change of float format is the identity. None mentions a program.
-/
import proofs.«118329_j35837207118456_2_alg».proof.Proof.LibIndex

noncomputable section

namespace Cert.DenseLib

open Idealize.ShloMosaic Idealize.ShloMosaic.ValueIdx Cert.LayoutLib

/-- The product of an `[M, K]` array with a `[K, N]` matrix: entry `(p, q)` is the sum over `k` of `X (p, k) · W (k, q)`. -/
def mm {M K N : ℕ} (X : (⟨2, ![M, K]⟩ : Shape).Idx → EReal) (W : (⟨2, ![K, N]⟩ : Shape).Idx → EReal) :
    (⟨2, ![M, N]⟩ : Shape).Idx → EReal :=
  fun i => ∑ k : Fin K, X (ix2 (n0 := M) (i 0) k) * W (ix2 k (n1 := N) (i 1))

/-- A bias vector laid along every row of an `[M, N]` array. -/
def rows {M N : ℕ} (b : Fin N → EReal) : (⟨2, ![M, N]⟩ : Shape).Idx → EReal := fun i => b (i 1)

/-- The cut at zero, entry by entry. -/
def relu {s : Shape} (X : s.Idx → EReal) : s.Idx → EReal := fun i => max (X i) 0

/-- The entrywise sum. -/
def plus {s : Shape} (X Y : s.Idx → EReal) : s.Idx → EReal := fun i => X i + Y i

theorem mm_apply {M K N : ℕ} (X : (⟨2, ![M, K]⟩ : Shape).Idx → EReal) (W : (⟨2, ![K, N]⟩ : Shape).Idx → EReal)
    (p : Fin M) (q : Fin N) : mm X W (ix2 p q) = ∑ k : Fin K, X (ix2 p k) * W (ix2 k q) := rfl

/-- A product's row `p` depends on row `p` of the left operand only: two arrays, of any heights, that agree on a
    row of each give products that agree on those rows. -/
theorem mm_row {M M' K N : ℕ} (X : (⟨2, ![M, K]⟩ : Shape).Idx → EReal) (X' : (⟨2, ![M', K]⟩ : Shape).Idx → EReal)
    (W : (⟨2, ![K, N]⟩ : Shape).Idx → EReal) (p : Fin M) (p' : Fin M')
    (h : ∀ k, X (ix2 p k) = X' (ix2 p' k)) (q : Fin N) : mm X W (ix2 p q) = mm X' W (ix2 p' q) := by
  rw [mm_apply, mm_apply]
  exact Finset.sum_congr rfl fun k _ => by rw [h k]

/-! ## The vector unit's spellings -/

/-- A change of float format is the identity on the extended reals. -/
theorem truncf_eq {s : Shape} {φ ψ : FTy} (X : FVec Ideal s φ) (h : ψ.bits < φ.bits) : (truncf ψ X h : FVec Ideal s ψ) = X := rfl

/-- A product accumulated into the zero splat is the product. -/
theorem matmul_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    matmul D none L R (constant ⟨2, ![M, N]⟩ .f32 0x00000000#32) = mm L R := by
  funext i
  obtain ⟨p, q, rfl⟩ : ∃ (p : Fin M) (q : Fin N), i = ix2 p q := ⟨i 0, i 1, eq_ix2 i⟩
  exact (Ideal.matmul_constant_zero_apply D none L R (ix2 p q)).trans (dot_plain_sum D hD L R p q)

/-- A one-row array broadcast down the rows lays its row along every row. -/
theorem broadcastTo_eq_rows {M N : ℕ} (v : FVec Ideal ⟨2, ![1, N]⟩ .f32) (h : (⟨2, ![1, N]⟩ : Shape).Broadcasts ⟨2, ![M, N]⟩) :
    broadcastTo ⟨2, ![M, N]⟩ v h = rows (M := M) fun c => v (ix2 (0 : Fin 1) c) := by
  funext i
  obtain ⟨p, q, rfl⟩ : ∃ (p : Fin M) (q : Fin N), i = ix2 p q := ⟨i 0, i 1, eq_ix2 i⟩
  exact broadcastTo_1b_ab_apply v h p q

/-- The maximum against a splat zero is the cut at zero. -/
theorem maximumf_splat_zero {s : Shape} (X : FVec Ideal s .f32) :
    maximumf X (broadcast s (Scalar.ofBits (F := Ideal) .f32 0x00000000#32)) = relu X := by
  funext i
  show max (X i) (Ideal.ofBits .f32 0x00000000#32) = max (X i) 0
  rw [Ideal.ofBits_zero_f32]

/-- The vector sum is the entrywise sum. -/
theorem addf_eq_plus {s : Shape} (X Y : FVec Ideal s .f32) : addf X Y = plus X Y := rfl

/-! ## The host's spellings -/

/-- The host's general dot with one contracted axis is the product. -/
theorem dotGeneral_eq_mm {M K N : ℕ} (D : DotDims ⟨2, ![M, K]⟩ ⟨2, ![K, N]⟩ ⟨2, ![M, N]⟩) (hD : D = DotDims.plain M K N)
    {φ₁ φ₂ : FTy} (L : FVec Ideal ⟨2, ![M, K]⟩ φ₁) (R : FVec Ideal ⟨2, ![K, N]⟩ φ₂) :
    Host.dotGeneral D none L R = mm L R := by
  funext i
  obtain ⟨p, q, rfl⟩ : ∃ (p : Fin M) (q : Fin N), i = ix2 p q := ⟨i 0, i 1, eq_ix2 i⟩
  simp only [Host.dotGeneral]
  rw [Ideal.dotGeneral_apply]
  exact dot_plain_sum D hD L R p q

/-- A vector broadcast to one row and then down the rows lays the vector along every row. -/
theorem broadcastInDim_eq_rows {M N : ℕ} (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) :
    broadcastInDim ⟨2, ![M, N]⟩ ![0, 1] h2 (broadcastInDim ⟨2, ![1, N]⟩ ![1] h1 b) = rows (M := M) fun c => b (ix1 c) := by
  funext i
  obtain ⟨p, q, rfl⟩ : ∃ (p : Fin M) (q : Fin N), i = ix2 p q := ⟨i 0, i 1, eq_ix2 i⟩
  rw [broadcastInDim_row_apply, broadcastInDim_vecRow_apply]
  rfl

/-- The maximum against a broadcast scalar zero is the cut at zero. -/
theorem maximumf_bcast_zero {s : Shape} (X : FVec Ideal s .f32)
    (h : (⟨0, ![]⟩ : Shape).BroadcastsInDim s (![] : Fin 0 → Fin s.rank)) :
    maximumf X (broadcastInDim s ![] h (constant (F := Ideal) ⟨0, ![]⟩ .f32 0x00000000#32)) = relu X := by
  funext i
  show max (X i) (broadcastInDim s ![] h (constant (F := Ideal) ⟨0, ![]⟩ .f32 0x00000000#32) i) = max (X i) 0
  rw [broadcastInDim_scalar_apply]
  show max (X i) (Ideal.ofBits .f32 0x00000000#32) = max (X i) 0
  rw [Ideal.ofBits_zero_f32]

end Cert.DenseLib

end
-- ==== Proof.LibRowBlocks.lean ====
/-
  A dense layer of a graph network on the extended reals, as whole-array functions at any number of rows: the
  product with a weight matrix after a bias row is added and the result cut at zero (`layer`), the bias alone
  (`biased`), and the product followed by a bias (`affine`). Row `p` of each depends only on row `p` of the
  array it is applied to: so a block of consecutive rows of the result is the same function of that block of rows,
  which is what lets a result computed block by block be read as one function of the whole array.
-/
import proofs.«118329_j35837207118456_2_alg».proof.Proof.LibDense

noncomputable section

namespace Cert.RowBlocks

open Idealize.ShloMosaic Idealize.ShloMosaic.ValueIdx Cert.LayoutLib Cert.DenseLib

/-- `relu (A + b) · W`: the bias `b` laid along every row of `A`, the cut at zero, then the product with `W`. -/
def layer {M K N : ℕ} (A : (⟨2, ![M, K]⟩ : Shape).Idx → EReal) (b : Fin K → EReal) (W : (⟨2, ![K, N]⟩ : Shape).Idx → EReal) :
    (⟨2, ![M, N]⟩ : Shape).Idx → EReal := mm (relu (plus A (rows b))) W

/-- `A + b`: the bias laid along every row. -/
def biased {M N : ℕ} (A : (⟨2, ![M, N]⟩ : Shape).Idx → EReal) (b : Fin N → EReal) : (⟨2, ![M, N]⟩ : Shape).Idx → EReal :=
  plus A (rows b)

/-- `P · W + b`. -/
def affine {M K N : ℕ} (P : (⟨2, ![M, K]⟩ : Shape).Idx → EReal) (W : (⟨2, ![K, N]⟩ : Shape).Idx → EReal) (b : Fin N → EReal) :
    (⟨2, ![M, N]⟩ : Shape).Idx → EReal := plus (mm P W) (rows b)

/-- An entry of a product is determined by its row of the left operand: if row `j 0` of `X'` is row `i 0` of `X`, the
    weights agree and the columns `j 1`, `i 1` are the same, the entries of the two products are equal. -/
theorem mm_eq_of_row {M M' K N : ℕ} (X' : (⟨2, ![M', K]⟩ : Shape).Idx → EReal) (W' : (⟨2, ![K, N]⟩ : Shape).Idx → EReal)
    (X : (⟨2, ![M, K]⟩ : Shape).Idx → EReal) (W : (⟨2, ![K, N]⟩ : Shape).Idx → EReal)
    (j : (⟨2, ![M', N]⟩ : Shape).Idx) (i : (⟨2, ![M, N]⟩ : Shape).Idx)
    (hw : W' = W) (hq : (j 1).val = (i 1).val) (hx : ∀ k : Fin K, X' (ix2 (n0 := M') (j 0) k) = X (ix2 (n0 := M) (i 0) k)) :
    mm X' W' j = mm X W i := by
  subst hw
  show ∑ k : Fin K, X' (ix2 (n0 := M') (j 0) k) * W' (ix2 k (n1 := N) (j 1)) = ∑ k : Fin K, X (ix2 (n0 := M) (i 0) k) * W' (ix2 k (n1 := N) (i 1))
  refine Finset.sum_congr rfl fun k _ => ?_
  have e : (ix2 k (n1 := N) (j 1)) = ix2 k (n1 := N) (i 1) := congrArg (ix2 k) (Fin.ext hq)
  rw [hx k, e]

/-- The same for a layer: the bias and the cut act entry by entry, so row `p` of `relu (A + b)` is determined by row `p` of `A`. -/
theorem layer_eq_of_row {M M' K N : ℕ} (A' : (⟨2, ![M', K]⟩ : Shape).Idx → EReal) (b' : Fin K → EReal) (W' : (⟨2, ![K, N]⟩ : Shape).Idx → EReal)
    (A : (⟨2, ![M, K]⟩ : Shape).Idx → EReal) (b : Fin K → EReal) (W : (⟨2, ![K, N]⟩ : Shape).Idx → EReal)
    (j : (⟨2, ![M', N]⟩ : Shape).Idx) (i : (⟨2, ![M, N]⟩ : Shape).Idx)
    (hb : b' = b) (hw : W' = W) (hq : (j 1).val = (i 1).val) (hx : ∀ k : Fin K, A' (ix2 (n0 := M') (j 0) k) = A (ix2 (n0 := M) (i 0) k)) :
    layer A' b' W' j = layer A b W i := by
  subst hb
  refine mm_eq_of_row _ _ _ _ j i hw hq fun k => ?_
  show max (A' (ix2 (n0 := M') (j 0) k) + b' ((ix2 (n0 := M') (j 0) k) 1)) 0 = max (A (ix2 (n0 := M) (i 0) k) + b' ((ix2 (n0 := M) (i 0) k) 1)) 0
  rw [hx k]
  rfl

/-- An entry of `A + b` is the entry of `A` plus the bias of its column. -/
theorem biased_eq_of_entry {M M' N : ℕ} (A' : (⟨2, ![M', N]⟩ : Shape).Idx → EReal) (b' : Fin N → EReal)
    (A : (⟨2, ![M, N]⟩ : Shape).Idx → EReal) (b : Fin N → EReal)
    (j : (⟨2, ![M', N]⟩ : Shape).Idx) (i : (⟨2, ![M, N]⟩ : Shape).Idx)
    (hb : b' = b) (hq : (j 1).val = (i 1).val) (hx : A' j = A i) : biased A' b' j = biased A b i := by
  subst hb
  show A' j + b' (j 1) = A i + b' (i 1)
  have e : (j 1 : Fin N) = (i 1 : Fin N) := Fin.ext hq
  rw [hx, e]

/-- A vector `[b]` recast as one row `[1, b]` reads, at `(u, c)`, the vector at `c`. -/
theorem shapeCast_vecRow_apply {α : Type} {b : ℕ} (x : (⟨1, ![b]⟩ : Shape).Idx → α) (h : (⟨1, ![b]⟩ : Shape).ShapeCasts ⟨2, ![1, b]⟩)
    (u : Fin 1) (c : Fin b) : shapeCast ⟨2, ![1, b]⟩ x h (ix2 u c) = x (ix1 c) :=
  shapeCast_apply x h _ _ (by
    have hu : u.val = 0 := by omega
    rw [Shape.rowMajor_val_two, Shape.rowMajor_val_one]
    show c.val = u.val * b + c.val
    rw [hu]; omega)

end Cert.RowBlocks

end
-- ==== Proof.CellSpec.lean ====
/-
  The attention-GRU cell as one function of its operands, at any number of rows.

  With `lin X W b = X · W + b` (the bias laid along every row), a cell takes the input `x`, the previous state `h`
  and the attended context `a`, row by row:
    z  = σ ((lin x Wz bwz + lin h Uz buz) + lin a Cz bcz)            the update gate
    r  = σ ((lin x Wr bwr + lin h Ur bur) + lin a Cr bcr)            the reset gate
    s̃  = tanh ((lin x W bw + lin (r ⊙ h) U bu) + lin a C bc)         the candidate
    s  = (1 − z) ⊙ h + z ⊙ s̃                                         the new state
    t  = max (((lin s Uo buo) + lin x Vo bvo) + lin a Co bco) 0      the output layer
  over the extended reals, every sum grouped as written. Each of these is row-local: row `p` of the result depends on
  row `p` of `x`, `h` and `a` only. So the cell computed on a block of rows is the block of the cell computed on all rows.
-/
import proofs.«118329_j35837207118456_2_alg».proof.Proof.LibRowBlocks

noncomputable section

namespace Cert.Cell

open Idealize.ShloMosaic Idealize.ShloMosaic.ValueIdx Cert.LayoutLib Cert.DenseLib Cert.RowBlocks

/-- An `[M, N]` array of extended reals. -/
abbrev Mat (M N : ℕ) := (⟨2, ![M, N]⟩ : Shape).Idx → EReal

/-- The twelve weight matrices and their twelve bias vectors. -/
structure Params where
  W : Mat 1024 1024
  bw : Fin 1024 → EReal
  Wz : Mat 1024 1024
  bwz : Fin 1024 → EReal
  Wr : Mat 1024 1024
  bwr : Fin 1024 → EReal
  U : Mat 1024 1024
  bu : Fin 1024 → EReal
  Uz : Mat 1024 1024
  buz : Fin 1024 → EReal
  Ur : Mat 1024 1024
  bur : Fin 1024 → EReal
  C : Mat 2048 1024
  bc : Fin 1024 → EReal
  Cz : Mat 2048 1024
  bcz : Fin 1024 → EReal
  Cr : Mat 2048 1024
  bcr : Fin 1024 → EReal
  Uo : Mat 1024 1024
  buo : Fin 1024 → EReal
  Vo : Mat 1024 1024
  bvo : Fin 1024 → EReal
  Co : Mat 2048 1024
  bco : Fin 1024 → EReal

variable {M : ℕ}

/-- The sum of three arrays, the first two first. -/
def sum3 (A B C : Mat M 1024) : Mat M 1024 := fun i => (A i + B i) + C i

/-- A gate: the logistic function of a sum of three. -/
def gate (A B C : Mat M 1024) : Mat M 1024 := fun i => Ideal.logistic (sum3 A B C i)

/-- The candidate's squashing: the hyperbolic tangent of a sum of three. -/
def squash (A B C : Mat M 1024) : Mat M 1024 := fun i => Ideal.tanh (sum3 A B C i)

/-- The entrywise product. -/
def had (A B : Mat M 1024) : Mat M 1024 := fun i => A i * B i

/-- The convex blend `(1 − z) ⊙ h + z ⊙ s̃`. -/
def blend (z h st : Mat M 1024) : Mat M 1024 := fun i => (1 - z i) * h i + z i * st i

/-- The update gate. -/
def update (P : Params) (x h : Mat M 1024) (a : Mat M 2048) : Mat M 1024 :=
  gate (affine x P.Wz P.bwz) (affine h P.Uz P.buz) (affine a P.Cz P.bcz)

/-- The reset gate. -/
def reset (P : Params) (x h : Mat M 1024) (a : Mat M 2048) : Mat M 1024 :=
  gate (affine x P.Wr P.bwr) (affine h P.Ur P.bur) (affine a P.Cr P.bcr)

/-- The candidate state. -/
def candidate (P : Params) (x h : Mat M 1024) (a : Mat M 2048) : Mat M 1024 :=
  squash (affine x P.W P.bw) (affine (had (reset P x h a) h) P.U P.bu) (affine a P.C P.bc)

/-- The new state. -/
def state (P : Params) (x h : Mat M 1024) (a : Mat M 2048) : Mat M 1024 :=
  blend (update P x h a) h (candidate P x h a)

/-- The output layer. -/
def outLayer (P : Params) (x h : Mat M 1024) (a : Mat M 2048) : Mat M 1024 :=
  relu (sum3 (affine (state P x h a) P.Uo P.buo) (affine x P.Vo P.bvo) (affine a P.Co P.bco))

/-- A bias vector of extended reals read as a function of its position. -/
def vec (b : (⟨1, ![1024]⟩ : Shape).Idx → EReal) : Fin 1024 → EReal := fun c => b (ix1 c)

/-- The parameters, from the twenty-four parameter arrays in the order the programs take them. -/
def paramsOf (a3 : Mat 1024 1024) (a4 : (⟨1, ![1024]⟩ : Shape).Idx → EReal) (a5 : Mat 1024 1024) (a6 : (⟨1, ![1024]⟩ : Shape).Idx → EReal)
    (a7 : Mat 1024 1024) (a8 : (⟨1, ![1024]⟩ : Shape).Idx → EReal) (a9 : Mat 1024 1024) (a10 : (⟨1, ![1024]⟩ : Shape).Idx → EReal)
    (a11 : Mat 1024 1024) (a12 : (⟨1, ![1024]⟩ : Shape).Idx → EReal) (a13 : Mat 1024 1024) (a14 : (⟨1, ![1024]⟩ : Shape).Idx → EReal)
    (a15 : Mat 2048 1024) (a16 : (⟨1, ![1024]⟩ : Shape).Idx → EReal) (a17 : Mat 2048 1024) (a18 : (⟨1, ![1024]⟩ : Shape).Idx → EReal)
    (a19 : Mat 2048 1024) (a20 : (⟨1, ![1024]⟩ : Shape).Idx → EReal) (a21 : Mat 1024 1024) (a22 : (⟨1, ![1024]⟩ : Shape).Idx → EReal)
    (a23 : Mat 1024 1024) (a24 : (⟨1, ![1024]⟩ : Shape).Idx → EReal) (a25 : Mat 2048 1024) (a26 : (⟨1, ![1024]⟩ : Shape).Idx → EReal) : Params where
  W := a3
  bw := vec a4
  Wz := a5
  bwz := vec a6
  Wr := a7
  bwr := vec a8
  U := a9
  bu := vec a10
  Uz := a11
  buz := vec a12
  Ur := a13
  bur := vec a14
  C := a15
  bc := vec a16
  Cz := a17
  bcz := vec a18
  Cr := a19
  bcr := vec a20
  Uo := a21
  buo := vec a22
  Vo := a23
  bvo := vec a24
  Co := a25
  bco := vec a26

/-! ## The parameters as one grid point holds them

  The region is handed the weights fused: four `[K, 1024]` matrices side by side as one `[K, 4096]` matrix (or two as
  `[K, 2048]`), and the matching bias vectors end to end as one row. The piece at offset `o` of a fused matrix is its
  columns `o … o + 1023`. -/

/-- Column `o + j` of an array of `N` columns that has room for 1024 columns from `o` on. -/
def col {N : ℕ} (o : ℕ) (ho : o + 1024 ≤ N) (j : Fin 1024) : Fin N := ⟨o + j.val, by have := j.isLt; omega⟩

/-- The piece of a fused matrix at column offset `o`. -/
def piece {K N : ℕ} (X : Mat K N) (o : ℕ) (ho : o + 1024 ≤ N) : Mat K 1024 := fun i => X (ix2 (i 0) (col o ho (i 1)))

/-- The piece of a fused one-row array at column offset `o`, as a function of the position. -/
def rowPiece {N : ℕ} (X : Mat 1 N) (o : ℕ) (ho : o + 1024 ≤ N) : Fin 1024 → EReal := fun j => X (ix2 (0 : Fin 1) (col o ho j))

/-- The parameters read off the ten parameter operands of one grid point: the input-side matrices `[W | Wz | Wr | Vo]`,
    the state-side `[Uz | Ur]`, the context-side `[Cz | Cr | C | Co]`, the two single matrices `U`, `Uo`, and the bias
    rows in the same orders. -/
def blockParams (x3 : Mat 1024 4096) (x4 : Mat 1024 2048) (x5 : Mat 2048 4096) (x6 x7 : Mat 1024 1024)
    (x8 : Mat 1 4096) (x9 : Mat 1 2048) (x10 : Mat 1 4096) (x11 x12 : Mat 1 1024) : Params where
  W := piece x3 0 (by norm_num)
  bw := rowPiece x8 0 (by norm_num)
  Wz := piece x3 1024 (by norm_num)
  bwz := rowPiece x8 1024 (by norm_num)
  Wr := piece x3 2048 (by norm_num)
  bwr := rowPiece x8 2048 (by norm_num)
  U := x6
  bu := rowPiece x11 0 (by norm_num)
  Uz := piece x4 0 (by norm_num)
  buz := rowPiece x9 0 (by norm_num)
  Ur := piece x4 1024 (by norm_num)
  bur := rowPiece x9 1024 (by norm_num)
  C := piece x5 2048 (by norm_num)
  bc := rowPiece x10 2048 (by norm_num)
  Cz := piece x5 0 (by norm_num)
  bcz := rowPiece x10 0 (by norm_num)
  Cr := piece x5 1024 (by norm_num)
  bcr := rowPiece x10 1024 (by norm_num)
  Uo := x7
  buo := rowPiece x12 0 (by norm_num)
  Vo := piece x3 3072 (by norm_num)
  bvo := rowPiece x8 3072 (by norm_num)
  Co := piece x5 3072 (by norm_num)
  bco := rowPiece x10 3072 (by norm_num)

end Cert.Cell

end
-- ==== Proof.BlockCell.lean ====
/-
  One grid point computes the cell on its block of rows. The body's three fused products are, each, an activation
  block times a fused weight matrix plus the fused bias row; a column slice of such a product at offset `o` is the
  product with the piece of the matrix at `o` plus the piece of the bias row at `o`. With the ten slices read this way
  the stored terms are the cell's state and output layer of the three activation blocks, at the parameters the
  block's ten parameter operands hold. A change of float format is the identity on the extended reals.
-/
import proofs.«118329_j35837207118456_2_alg».proof.Proof.BodyIdeal
import proofs.«118329_j35837207118456_2_alg».proof.Proof.CellSpec

set_option maxRecDepth 16384

noncomputable section

namespace Cert.KernelIdeal.Hand

open Cert.KernelIdeal Cert.KernelIdeal.Gen
open Idealize.ShloMosaic Idealize.ShloMosaic.ValueIdx
open Cert.Cell Cert.DenseLib Cert.RowBlocks Cert.LayoutLib

theorem hz : (![0, 0] : Fin 2 → Nat) = fun _ => 0 := funext fun a => by fin_cases a <;> rfl

/-- The literal 1.0 is the real number one. -/
theorem one_lit : (Scalar.ofBits (F := Ideal) .f32 0x3F800000#32 : EReal) = 1 := IdealRules.sign_bit.ideal_onePat .f32

/-- The piece at offset zero of a one-row array of width 1024 is the row itself. -/
theorem rowPiece_zero (X : Mat 1 1024) (h : 0 + 1024 ≤ 1024) : rowPiece X 0 h = fun c => X (ix2 (0 : Fin 1) c) :=
  funext fun c => congrArg (fun k => X (ix2 (0 : Fin 1) k)) (Fin.ext (Nat.zero_add _))

/-- A column slice of a product plus bias row, at offset `o`: the product with the matrix's piece at `o` plus the row's
    piece at `o`. -/
theorem slice_affine {M K N : ℕ} (X : Mat M K) (Wf : Mat K N) (bf : Fin N → EReal) (o : ℕ) (ho : o + 1024 ≤ N)
    (h : (⟨2, ![M, N]⟩ : Shape).Slices ![0, o] ⟨2, ![M, 1024]⟩) :
    extractStridedSlice ⟨2, ![M, 1024]⟩ ![0, o] (affine X Wf bf) h = affine X (piece Wf o ho) (fun j => bf (col o ho j)) := by
  funext i
  obtain ⟨p, j, rfl⟩ : ∃ (p : Fin M) (j : Fin 1024), i = ix2 p j := ⟨i 0, i 1, eq_ix2 i⟩
  rw [extractStridedSlice_apply _ _ h (ix2 p j) (ix2 p (col o ho j)) (fun a => by
    match a with
    | ⟨0, _⟩ => show p.val = 0 + p.val; omega
    | ⟨1, _⟩ => rfl)]
  rfl

/-! ## The three fused products -/

theorem pay3_eq (v0 : Vec Ideal S256x1024 .f32) (v6 : Vec Ideal S1024x4096 .bf16) (v9 : Vec Ideal S1x4096 .f32) :
    k0_pay3 v0 v6 v9 = affine (M := 256) v0 v6 (fun c => v9 (ix2 (0 : Fin 1) c)) := by
  unfold k0_pay3
  dsimp only
  rw [shapeCast_self, shapeCast_self, matmul_eq_mm dot_S256x1024_S1024x4096_S256x4096_1_0_0_1_n_n rfl, broadcastTo_eq_rows]
  rfl

theorem pay4_eq (v2 : Vec Ideal S256x1024 .f32) (v13 : Vec Ideal S1024x2048 .bf16) (v16 : Vec Ideal S1x2048 .f32) :
    k0_pay4 v2 v13 v16 = affine (M := 256) v2 v13 (fun c => v16 (ix2 (0 : Fin 1) c)) := by
  unfold k0_pay4
  dsimp only
  rw [shapeCast_self, shapeCast_self, matmul_eq_mm dot_S256x1024_S1024x2048_S256x2048_1_0_0_1_n_n rfl, broadcastTo_eq_rows]
  rfl

theorem pay5_eq (v4 : Vec Ideal S256x2048 .f32) (v20 : Vec Ideal S2048x4096 .bf16) (v23 : Vec Ideal S1x4096 .f32) :
    k0_pay5 v4 v20 v23 = affine (M := 256) v4 v20 (fun c => v23 (ix2 (0 : Fin 1) c)) := by
  unfold k0_pay5
  dsimp only
  rw [shapeCast_self, shapeCast_self, matmul_eq_mm dot_S256x2048_S2048x4096_S256x4096_1_0_0_1_n_n rfl, broadcastTo_eq_rows]
  rfl

/-! ## Their ten column slices -/

theorem pay6_eq (v0 : Vec Ideal S256x1024 .f32) (v6 : Vec Ideal S1024x4096 .bf16) (v9 : Vec Ideal S1x4096 .f32) :
    k0_pay6 v0 v6 v9 = affine (M := 256) v0 (piece v6 0 (by norm_num)) (rowPiece v9 0 (by norm_num)) := by
  unfold k0_pay6; dsimp only; rw [pay3_eq]; exact slice_affine _ _ _ 0 (by norm_num) _
theorem pay7_eq (v0 : Vec Ideal S256x1024 .f32) (v6 : Vec Ideal S1024x4096 .bf16) (v9 : Vec Ideal S1x4096 .f32) :
    k0_pay7 v0 v6 v9 = affine (M := 256) v0 (piece v6 2048 (by norm_num)) (rowPiece v9 2048 (by norm_num)) := by
  unfold k0_pay7; dsimp only; rw [pay3_eq]; exact slice_affine _ _ _ 2048 (by norm_num) _
theorem pay8_eq (v0 : Vec Ideal S256x1024 .f32) (v6 : Vec Ideal S1024x4096 .bf16) (v9 : Vec Ideal S1x4096 .f32) :
    k0_pay8 v0 v6 v9 = affine (M := 256) v0 (piece v6 3072 (by norm_num)) (rowPiece v9 3072 (by norm_num)) := by
  unfold k0_pay8; dsimp only; rw [pay3_eq]; exact slice_affine _ _ _ 3072 (by norm_num) _
theorem pay9_eq (v2 : Vec Ideal S256x1024 .f32) (v13 : Vec Ideal S1024x2048 .bf16) (v16 : Vec Ideal S1x2048 .f32) :
    k0_pay9 v2 v13 v16 = affine (M := 256) v2 (piece v13 1024 (by norm_num)) (rowPiece v16 1024 (by norm_num)) := by
  unfold k0_pay9; dsimp only; rw [pay4_eq]; exact slice_affine _ _ _ 1024 (by norm_num) _
theorem pay10_eq (v4 : Vec Ideal S256x2048 .f32) (v20 : Vec Ideal S2048x4096 .bf16) (v23 : Vec Ideal S1x4096 .f32) :
    k0_pay10 v4 v20 v23 = affine (M := 256) v4 (piece v20 0 (by norm_num)) (rowPiece v23 0 (by norm_num)) := by
  unfold k0_pay10; dsimp only; rw [pay5_eq]; exact slice_affine _ _ _ 0 (by norm_num) _
theorem pay11_eq (v4 : Vec Ideal S256x2048 .f32) (v20 : Vec Ideal S2048x4096 .bf16) (v23 : Vec Ideal S1x4096 .f32) :
    k0_pay11 v4 v20 v23 = affine (M := 256) v4 (piece v20 1024 (by norm_num)) (rowPiece v23 1024 (by norm_num)) := by
  unfold k0_pay11; dsimp only; rw [pay5_eq]; exact slice_affine _ _ _ 1024 (by norm_num) _
theorem pay12_eq (v4 : Vec Ideal S256x2048 .f32) (v20 : Vec Ideal S2048x4096 .bf16) (v23 : Vec Ideal S1x4096 .f32) :
    k0_pay12 v4 v20 v23 = affine (M := 256) v4 (piece v20 2048 (by norm_num)) (rowPiece v23 2048 (by norm_num)) := by
  unfold k0_pay12; dsimp only; rw [pay5_eq]; exact slice_affine _ _ _ 2048 (by norm_num) _
theorem pay13_eq (v4 : Vec Ideal S256x2048 .f32) (v20 : Vec Ideal S2048x4096 .bf16) (v23 : Vec Ideal S1x4096 .f32) :
    k0_pay13 v4 v20 v23 = affine (M := 256) v4 (piece v20 3072 (by norm_num)) (rowPiece v23 3072 (by norm_num)) := by
  unfold k0_pay13; dsimp only; rw [pay5_eq]; exact slice_affine _ _ _ 3072 (by norm_num) _
theorem pay14_eq (v0 v2 : Vec Ideal S256x1024 .f32) (v6 : Vec Ideal S1024x4096 .bf16) (v9 : Vec Ideal S1x4096 .f32)
    (v13 : Vec Ideal S1024x2048 .bf16) (v16 : Vec Ideal S1x2048 .f32) :
    k0_pay14 v0 v2 v6 v9 v13 v16 = plus (affine (M := 256) v0 (piece v6 1024 (by norm_num)) (rowPiece v9 1024 (by norm_num)))
      (affine (M := 256) v2 (piece v13 0 (by norm_num)) (rowPiece v16 0 (by norm_num))) := by
  unfold k0_pay14; dsimp only; rw [pay3_eq, pay4_eq]
  rw [slice_affine _ _ _ 1024 (by norm_num) _, slice_affine _ _ _ 0 (by norm_num) _]
  rfl

/-! ## The two stored terms -/

/-- The state's term of its ten operands: the blend of the update gate, the old state and the candidate. -/
theorem pay1_eq (v2 v27 v29 v32 v33 v34 v35 v37 : FVec Ideal S256x1024 .f32) (v45 : Vec Ideal S1024x1024 .bf16) (v48 : Vec Ideal S1x1024 .f32) :
    k0_pay1 v2 v27 v29 v32 v33 v34 v35 v37 v45 v48
      = blend (M := 256) (fun i => Ideal.logistic (v37 i + v33 i)) v2
          (squash v27 (affine (had (gate v29 v32 v34) v2) v45 (rowPiece v48 0 (by norm_num))) v35) := by
  unfold k0_pay1
  dsimp only
  rw [shapeCast_self, shapeCast_self, matmul_eq_mm dot_S256x1024_S1024x1024_S256x1024_1_0_0_1_n_n rfl, broadcastTo_eq_rows,
    rowPiece_zero,
    show broadcast S256x1024 (Scalar.ofBits (F := Ideal) .f32 0x3F800000#32) = fun _ => (1 : EReal) from funext fun _ => one_lit]
  rfl

/-- The output layer's term: the cut at zero of the sum of the state's product with its weights and the two slices. -/
theorem pay2_eq (s v30 v36 : FVec Ideal S256x1024 .f32) (v61 : FVec Ideal S1024x1024 .bf16) (v64 : FVec Ideal S1x1024 .f32) :
    maximumf (addf (addf (addf (matmul dot_S256x1024_S1024x1024_S256x1024_1_0_0_1_n_n none (truncf .bf16 s bitsLt_bf16_f32)
        (shapeCast S1024x1024 v61 shapeCasts_S1024x1024_S1024x1024) (constant S256x1024 .f32 0x00000000#32))
        (broadcastTo S256x1024 (shapeCast S1x1024 v64 shapeCasts_S1x1024_S1x1024) broadcasts_S1x1024_S256x1024)) v30) v36)
        (broadcast S256x1024 (Scalar.ofBits (F := Ideal) .f32 0x00000000#32))
      = relu (sum3 (M := 256) (affine s v61 (rowPiece v64 0 (by norm_num))) v30 v36) := by
  rw [shapeCast_self, shapeCast_self, matmul_eq_mm dot_S256x1024_S1024x1024_S256x1024_1_0_0_1_n_n rfl, broadcastTo_eq_rows,
    rowPiece_zero, maximumf_splat_zero]
  rfl

theorem stateTerm_eq (x0 : Vec Ideal S256x1024 .f32) (x1 : Vec Ideal S256x1024 .f32) (x2 : Vec Ideal S256x2048 .f32) (x3 : Vec Ideal S1024x4096 .bf16) (x4 : Vec Ideal S1024x2048 .bf16) (x5 : Vec Ideal S2048x4096 .bf16) (x6 : Vec Ideal S1024x1024 .bf16) (x7 : Vec Ideal S1024x1024 .bf16) (x8 : Vec Ideal S1x4096 .f32) (x9 : Vec Ideal S1x2048 .f32) (x10 : Vec Ideal S1x4096 .f32) (x11 : Vec Ideal S1x1024 .f32) (x12 : Vec Ideal S1x1024 .f32) :
    stateTerm x0 x1 x2 x3 x4 x5 x6 x7 x8 x9 x10 x11 x12 = state (M := 256) (blockParams x3 x4 x5 x6 x7 x8 x9 x10 x11 x12) x0 x1 x2 := by
  unfold stateTerm
  simp only [View.ld_unit_zero (S := S256x1024) hz, View.ld_unit_zero (S := S256x2048) hz, View.ld_unit_zero (S := S1024x4096) hz, View.ld_unit_zero (S := S1024x2048) hz, View.ld_unit_zero (S := S2048x4096) hz, View.ld_unit_zero (S := S1024x1024) hz, View.ld_unit_zero (S := S1x4096) hz, View.ld_unit_zero (S := S1x2048) hz, View.ld_unit_zero (S := S1x1024) hz]
  rw [pay1_eq, pay6_eq, pay7_eq, pay9_eq, pay10_eq, pay11_eq, pay12_eq, pay14_eq]
  rfl

theorem layerTerm_eq (x0 : Vec Ideal S256x1024 .f32) (x1 : Vec Ideal S256x1024 .f32) (x2 : Vec Ideal S256x2048 .f32) (x3 : Vec Ideal S1024x4096 .bf16) (x4 : Vec Ideal S1024x2048 .bf16) (x5 : Vec Ideal S2048x4096 .bf16) (x6 : Vec Ideal S1024x1024 .bf16) (x7 : Vec Ideal S1024x1024 .bf16) (x8 : Vec Ideal S1x4096 .f32) (x9 : Vec Ideal S1x2048 .f32) (x10 : Vec Ideal S1x4096 .f32) (x11 : Vec Ideal S1x1024 .f32) (x12 : Vec Ideal S1x1024 .f32) :
    layerTerm x0 x1 x2 x3 x4 x5 x6 x7 x8 x9 x10 x11 x12 = outLayer (M := 256) (blockParams x3 x4 x5 x6 x7 x8 x9 x10 x11 x12) x0 x1 x2 := by
  unfold layerTerm k0_pay2
  dsimp only
  simp only [View.ld_unit_zero (S := S256x1024) hz, View.ld_unit_zero (S := S256x2048) hz, View.ld_unit_zero (S := S1024x4096) hz, View.ld_unit_zero (S := S1024x2048) hz, View.ld_unit_zero (S := S2048x4096) hz, View.ld_unit_zero (S := S1024x1024) hz, View.ld_unit_zero (S := S1x4096) hz, View.ld_unit_zero (S := S1x2048) hz, View.ld_unit_zero (S := S1x1024) hz]
  rw [pay2_eq, pay1_eq, pay6_eq, pay7_eq, pay8_eq, pay9_eq, pay10_eq, pay11_eq, pay12_eq, pay13_eq, pay14_eq]
  rfl

end Cert.KernelIdeal.Hand

end
-- ==== Proof.CellRows.lean ====
/-
  Row-locality of the attention-GRU cell.

  Every array the cell forms is built from its three operands by two kinds of step: a product with a fixed weight
  matrix followed by a bias laid along the rows, and entry-by-entry arithmetic. Entry `(p, q)` of a product `X · W`
  reads row `p` of `X` only; an entrywise step at `(p, q)` reads its operands at `(p, q)` only. So row `p` of every
  intermediate array, and of the two results, is a function of row `p` of the input, of the previous state and of the
  context. Stated for two triples of operands of any two heights: if row `j 0` of the primed operands is row `i 0` of
  the unprimed ones and the columns `j 1`, `i 1` are the same, the cell's arrays agree at `j` and `i`.

  Two products read an array that is itself computed — the candidate reads `r ⊙ h`, the output layer reads the new
  state — and they read its whole row. Hence each statement is first used at every column `k` of the row (at the
  indices `(j 0, k)` and `(i 0, k)`) to give the row of the computed array, and then the product's lemma applies.
-/
import proofs.«118329_j35837207118456_2_alg».proof.Proof.CellSpec

noncomputable section

namespace Cert.Cell

open Idealize.ShloMosaic Idealize.ShloMosaic.ValueIdx Cert.LayoutLib Cert.DenseLib Cert.RowBlocks

variable {M M' : ℕ}

/-! ## The two kinds of step -/

/-- An entry of an array is read off its row: if row `j 0` of `X'` is row `i 0` of `X` and the columns agree, so do the entries. -/
theorem entry_eq_of_row {K : ℕ} (X' : Mat M' K) (X : Mat M K)
    (j : (⟨2, ![M', K]⟩ : Shape).Idx) (i : (⟨2, ![M, K]⟩ : Shape).Idx) (hq : (j 1).val = (i 1).val)
    (hx : ∀ k : Fin K, X' (ix2 (j 0) k) = X (ix2 (i 0) k)) : X' j = X i := by
  have e : (j 1 : Fin K) = (i 1 : Fin K) := Fin.ext hq
  calc X' j = X' (ix2 (j 0) (j 1)) := congrArg X' (eq_ix2 j)
    _ = X (ix2 (i 0) (j 1)) := hx (j 1)
    _ = X (ix2 (i 0) (i 1)) := by rw [e]
    _ = X i := congrArg X (eq_ix2 i).symm

/-- `X · W + b` at an entry is determined by the entry's row of `X`. -/
theorem affine_eq_of_row {K : ℕ} (X' : Mat M' K) (X : Mat M K) (W : Mat K 1024) (b : Fin 1024 → EReal)
    (j : (⟨2, ![M', 1024]⟩ : Shape).Idx) (i : (⟨2, ![M, 1024]⟩ : Shape).Idx) (hq : (j 1).val = (i 1).val)
    (hx : ∀ k : Fin K, X' (ix2 (j 0) k) = X (ix2 (i 0) k)) : affine X' W b j = affine X W b i :=
  biased_eq_of_entry (mm X' W) b (mm X W) b j i rfl hq (mm_eq_of_row X' W X W j i rfl hq hx)

/-- A sum of three at an entry is the sum of the three entries. -/
theorem sum3_eq_of_entry (A' B' C' : Mat M' 1024) (A B C : Mat M 1024)
    (j : (⟨2, ![M', 1024]⟩ : Shape).Idx) (i : (⟨2, ![M, 1024]⟩ : Shape).Idx)
    (hA : A' j = A i) (hB : B' j = B i) (hC : C' j = C i) : sum3 A' B' C' j = sum3 A B C i := by
  show (A' j + B' j) + C' j = (A i + B i) + C i
  rw [hA, hB, hC]

/-- A gate at an entry is the logistic function of the three entries' sum. -/
theorem gate_eq_of_entry (A' B' C' : Mat M' 1024) (A B C : Mat M 1024)
    (j : (⟨2, ![M', 1024]⟩ : Shape).Idx) (i : (⟨2, ![M, 1024]⟩ : Shape).Idx)
    (hA : A' j = A i) (hB : B' j = B i) (hC : C' j = C i) : gate A' B' C' j = gate A B C i :=
  congrArg Ideal.logistic (sum3_eq_of_entry A' B' C' A B C j i hA hB hC)

/-- The squashing at an entry is the hyperbolic tangent of the three entries' sum. -/
theorem squash_eq_of_entry (A' B' C' : Mat M' 1024) (A B C : Mat M 1024)
    (j : (⟨2, ![M', 1024]⟩ : Shape).Idx) (i : (⟨2, ![M, 1024]⟩ : Shape).Idx)
    (hA : A' j = A i) (hB : B' j = B i) (hC : C' j = C i) : squash A' B' C' j = squash A B C i :=
  congrArg Ideal.tanh (sum3_eq_of_entry A' B' C' A B C j i hA hB hC)

/-! ## The gates, the candidate, the new state and the output layer -/

section
variable (P : Params) (x' h' : Mat M' 1024) (a' : Mat M' 2048) (x h : Mat M 1024) (a : Mat M 2048)
  (j : (⟨2, ![M', 1024]⟩ : Shape).Idx) (i : (⟨2, ![M, 1024]⟩ : Shape).Idx) (hq : (j 1).val = (i 1).val)
  (hx : ∀ k : Fin 1024, x' (ix2 (j 0) k) = x (ix2 (i 0) k)) (hh : ∀ k : Fin 1024, h' (ix2 (j 0) k) = h (ix2 (i 0) k))
  (ha : ∀ k : Fin 2048, a' (ix2 (j 0) k) = a (ix2 (i 0) k))

include hq hx hh ha

/-- The update gate is row-local. -/
theorem update_eq_of_row : update P x' h' a' j = update P x h a i :=
  gate_eq_of_entry _ _ _ _ _ _ j i (affine_eq_of_row x' x P.Wz P.bwz j i hq hx) (affine_eq_of_row h' h P.Uz P.buz j i hq hh)
    (affine_eq_of_row a' a P.Cz P.bcz j i hq ha)

/-- The reset gate is row-local. -/
theorem reset_eq_of_row : reset P x' h' a' j = reset P x h a i :=
  gate_eq_of_entry _ _ _ _ _ _ j i (affine_eq_of_row x' x P.Wr P.bwr j i hq hx) (affine_eq_of_row h' h P.Ur P.bur j i hq hh)
    (affine_eq_of_row a' a P.Cr P.bcr j i hq ha)

omit hq in
/-- Row `j 0` of `r' ⊙ h'` is row `i 0` of `r ⊙ h`: the reset gate agrees at every column of the row, and so does the state. -/
theorem had_reset_row (k : Fin 1024) :
    had (reset P x' h' a') h' (ix2 (j 0) k) = had (reset P x h a) h (ix2 (i 0) k) := by
  show reset P x' h' a' (ix2 (j 0) k) * h' (ix2 (j 0) k) = reset P x h a (ix2 (i 0) k) * h (ix2 (i 0) k)
  rw [reset_eq_of_row P x' h' a' x h a (ix2 (j 0) k) (ix2 (i 0) k) rfl hx hh ha, hh k]

/-- The candidate is row-local: its middle product reads the whole row of `r ⊙ h`. -/
theorem candidate_eq_of_row : candidate P x' h' a' j = candidate P x h a i :=
  squash_eq_of_entry _ _ _ _ _ _ j i (affine_eq_of_row x' x P.W P.bw j i hq hx)
    (affine_eq_of_row (had (reset P x' h' a') h') (had (reset P x h a) h) P.U P.bu j i hq
      (had_reset_row P x' h' a' x h a j i hx hh ha))
    (affine_eq_of_row a' a P.C P.bc j i hq ha)

/-- The new state is row-local. -/
theorem state_eq_of_row : state P x' h' a' j = state P x h a i := by
  have hz := update_eq_of_row P x' h' a' x h a j i hq hx hh ha
  have hc := candidate_eq_of_row P x' h' a' x h a j i hq hx hh ha
  have he : h' j = h i := entry_eq_of_row h' h j i hq hh
  show (1 - update P x' h' a' j) * h' j + update P x' h' a' j * candidate P x' h' a' j
      = (1 - update P x h a i) * h i + update P x h a i * candidate P x h a i
  rw [hz, hc, he]

omit hq in
/-- Row `j 0` of the primed new state is row `i 0` of the unprimed one. -/
theorem state_row (k : Fin 1024) : state P x' h' a' (ix2 (j 0) k) = state P x h a (ix2 (i 0) k) :=
  state_eq_of_row P x' h' a' x h a (ix2 (j 0) k) (ix2 (i 0) k) rfl hx hh ha

/-- The output layer is row-local: its first product reads the whole row of the new state. -/
theorem outLayer_eq_of_row : outLayer P x' h' a' j = outLayer P x h a i := by
  have hs := sum3_eq_of_entry _ _ _ _ _ _ j i
    (affine_eq_of_row (state P x' h' a') (state P x h a) P.Uo P.buo j i hq (state_row P x' h' a' x h a j i hx hh ha))
    (affine_eq_of_row x' x P.Vo P.bvo j i hq hx) (affine_eq_of_row a' a P.Co P.bco j i hq ha)
  show max (sum3 (affine (state P x' h' a') P.Uo P.buo) (affine x' P.Vo P.bvo) (affine a' P.Co P.bco) j) 0
      = max (sum3 (affine (state P x h a) P.Uo P.buo) (affine x P.Vo P.bvo) (affine a P.Co P.bco) i) 0
  rw [hs]

end

end Cert.Cell

end
-- ==== Proof.LibFused.lean ====
/-
  General lemmas: arrays laid side by side (rank-two arrays joined along their columns) or end to end (vectors joined
  into one longer vector) by a concatenation, read at an index. The column, or position, `pre + q` of the joined array —
  `pre` the total extent of the pieces before piece `k` — is column, or position, `q` of piece `k`. None mentions a program.
-/
import proofs.«118329_j35837207118456_2_alg».proof.Proof.LibIndex

noncomputable section

namespace Cert.FusedLib

open Idealize.ShloMosaic Idealize.ShloMosaic.ValueIdx

variable {α : Type}

/-- Rank-two arrays joined along their columns into a `[K, N]` array: at `(p, c)`, where `c = pre + q` and `pre` is
    the total width of the pieces before piece `k`, a `[K, n]` array `x`, the joined array reads `x` at `(p, q)`. -/
theorem concatenate_cols_apply {K n N : ℕ} (xs : List ((s : Shape) × (s.Idx → α)))
    (h : Shape.Concatenates (xs.map (·.1)) ⟨2, ![K, N]⟩ (1 : Fin 2)) (k : ℕ) (hk : k < xs.length)
    (x : (⟨2, ![K, n]⟩ : Shape).Idx → α) (hxk : xs[k] = ⟨⟨2, ![K, n]⟩, x⟩) (pre : ℕ)
    (hpre : (((xs.take k).map (·.1)).map fun s : Shape =>
      if h : s.rank = (⟨2, ![K, N]⟩ : Shape).rank then s.size ((1 : Fin 2).cast h.symm) else 0).sum = pre)
    (p : Fin K) (q : Fin n) (c : Fin N) (hc : c.val = pre + q.val) :
    concatenate ⟨2, ![K, N]⟩ (1 : Fin 2) xs h (ix2 p c) = x (ix2 p q) :=
  concatenate_apply_piece (t := ⟨2, ![K, N]⟩) (1 : Fin 2) xs h (ix2 p c) k hk ⟨2, ![K, n]⟩ x hxk rfl pre hpre (ix2 p q)
    (fun b hb => by
      match b with
      | ⟨0, _⟩ => rfl
      | ⟨1, _⟩ => exact absurd (Fin.ext rfl) hb)
    (by show pre + q.val = c.val; omega)

/-- Vectors joined end to end into a vector of length `N`: at position `c = pre + q`, `pre` the total length of the
    pieces before piece `k`, a vector `x` of length `n`, the joined vector reads `x` at `q`. -/
theorem concatenate_vec_apply {n N : ℕ} (xs : List ((s : Shape) × (s.Idx → α)))
    (h : Shape.Concatenates (xs.map (·.1)) ⟨1, ![N]⟩ (0 : Fin 1)) (k : ℕ) (hk : k < xs.length)
    (x : (⟨1, ![n]⟩ : Shape).Idx → α) (hxk : xs[k] = ⟨⟨1, ![n]⟩, x⟩) (pre : ℕ)
    (hpre : (((xs.take k).map (·.1)).map fun s : Shape =>
      if h : s.rank = (⟨1, ![N]⟩ : Shape).rank then s.size ((0 : Fin 1).cast h.symm) else 0).sum = pre)
    (q : Fin n) (c : Fin N) (hc : c.val = pre + q.val) :
    concatenate ⟨1, ![N]⟩ (0 : Fin 1) xs h (ix1 c) = x (ix1 q) :=
  concatenate_apply_piece (t := ⟨1, ![N]⟩) (0 : Fin 1) xs h (ix1 c) k hk ⟨1, ![n]⟩ x hxk rfl pre hpre (ix1 q)
    (fun b hb => by
      match b with
      | ⟨0, _⟩ => exact absurd (Fin.ext rfl) hb)
    (by show pre + q.val = c.val; omega)

end Cert.FusedLib

end
-- ==== Proof.EntryParams.lean ====
/-
  The parameters one grid point holds are the program's parameters.

  Before its region the program lays the four input-side weight matrices side by side as one 1024 × 4096 matrix
  `[W | Wz | Wr | Vo]`, the two state-side ones as `[Uz | Ur]`, the four context-side ones as `[Cz | Cr | C | Co]`, and
  the matching bias vectors end to end, each then recast as a one-row matrix; the two remaining matrices `U`, `Uo` and
  their biases go in alone. Each of these ten arrays is staged whole at every grid point (the block is the array, at
  block index zero), so the block a point holds is the array the region finds. A joined array read at column
  `o + j`, `o` the width of the pieces before piece `k`, is piece `k` at column `j`; over the extended reals the
  narrowing of the joined matrices is the identity. So the parameters cut out of a point's ten blocks at the offsets
  0, 1024, 2048, 3072 are the twenty-four parameter arrays as launched.
-/
import proofs.«118329_j35837207118456_2_alg».proof.Proof.EntryIdeal
import proofs.«118329_j35837207118456_2_alg».proof.Proof.CellSpec
import proofs.«118329_j35837207118456_2_alg».proof.Proof.LibFused

set_option maxRecDepth 16384

noncomputable section

namespace Cert.KernelIdeal.Hand

open Cert.KernelIdeal Cert.KernelIdeal.Gen Cert.KernelIdeal.Facts₀ Cert.KernelIdeal.Facts
open Idealize.ShloMosaic Idealize.ShloMosaic.TcCoe Idealize.ShloMosaic.Tactic Idealize.ShloMosaic.ValueIdx
open Cert.LayoutLib Cert.DenseLib Cert.RowBlocks Cert.FusedLib Cert.Cell

/-! ## Pieces of joined arrays -/

/-- The piece at column offset `o` of matrices joined along their columns, `o` the total width of the pieces before
    piece `k`, is piece `k`. -/
theorem piece_concatenate {K N : ℕ} (xs : List ((s : Shape) × (s.Idx → EReal)))
    (h : Shape.Concatenates (xs.map (·.1)) ⟨2, ![K, N]⟩ (1 : Fin 2)) (k : ℕ) (hk : k < xs.length)
    (x : Mat K 1024) (hxk : xs[k] = ⟨⟨2, ![K, 1024]⟩, x⟩) (o : ℕ) (ho : o + 1024 ≤ N)
    (hpre : (((xs.take k).map (·.1)).map fun s : Shape =>
      if h : s.rank = (⟨2, ![K, N]⟩ : Shape).rank then s.size ((1 : Fin 2).cast h.symm) else 0).sum = o) :
    piece (concatenate ⟨2, ![K, N]⟩ (1 : Fin 2) xs h) o ho = x := by
  funext i
  obtain ⟨p, q, rfl⟩ : ∃ (p : Fin K) (q : Fin 1024), i = ix2 p q := ⟨i 0, i 1, eq_ix2 i⟩
  exact concatenate_cols_apply xs h k hk x hxk o hpre p q (col o ho q) rfl

/-- The piece at offset `o` of vectors joined end to end and recast as one row, `o` the total length of the pieces
    before piece `k`, is piece `k` as a function of the position. -/
theorem rowPiece_concatenate {N : ℕ} (xs : List ((s : Shape) × (s.Idx → EReal)))
    (h : Shape.Concatenates (xs.map (·.1)) ⟨1, ![N]⟩ (0 : Fin 1))
    (hc : (⟨1, ![N]⟩ : Shape).ShapeCasts ⟨2, ![1, N]⟩) (k : ℕ) (hk : k < xs.length)
    (x : (⟨1, ![1024]⟩ : Shape).Idx → EReal) (hxk : xs[k] = ⟨⟨1, ![1024]⟩, x⟩) (o : ℕ) (ho : o + 1024 ≤ N)
    (hpre : (((xs.take k).map (·.1)).map fun s : Shape =>
      if h : s.rank = (⟨1, ![N]⟩ : Shape).rank then s.size ((0 : Fin 1).cast h.symm) else 0).sum = o) :
    rowPiece (shapeCast ⟨2, ![1, N]⟩ (concatenate ⟨1, ![N]⟩ (0 : Fin 1) xs h) hc) o ho = vec x := by
  funext j
  show shapeCast ⟨2, ![1, N]⟩ (concatenate ⟨1, ![N]⟩ (0 : Fin 1) xs h) hc (ix2 (0 : Fin 1) (col o ho j)) = x (ix1 j)
  rw [shapeCast_vecRow_apply]
  exact concatenate_vec_apply xs h k hk x hxk o hpre j (col o ho j) rfl

/-- A single vector recast as one row: its piece at offset zero is the vector as a function of the position. -/
theorem rowPiece_shapeCast (x : (⟨1, ![1024]⟩ : Shape).Idx → EReal)
    (hc : (⟨1, ![1024]⟩ : Shape).ShapeCasts ⟨2, ![1, 1024]⟩) (ho : 0 + 1024 ≤ 1024) :
    rowPiece (shapeCast ⟨2, ![1, 1024]⟩ x hc) 0 ho = vec x := by
  funext j
  show shapeCast ⟨2, ![1, 1024]⟩ x hc (ix2 (0 : Fin 1) (col 0 ho j)) = x (ix1 j)
  rw [shapeCast_vecRow_apply]
  exact congrArg (fun q : Fin 1024 => x (ix1 q)) (Fin.ext (Nat.zero_add j.val))

/-- The parameters cut out of the joined arrays are the arrays that were joined. -/
theorem blockParams_fused (a3 : Mat 1024 1024) (a4 : S1024.Idx → EReal) (a5 : Mat 1024 1024) (a6 : S1024.Idx → EReal)
    (a7 : Mat 1024 1024) (a8 : S1024.Idx → EReal) (a9 : Mat 1024 1024) (a10 : S1024.Idx → EReal)
    (a11 : Mat 1024 1024) (a12 : S1024.Idx → EReal) (a13 : Mat 1024 1024) (a14 : S1024.Idx → EReal)
    (a15 : Mat 2048 1024) (a16 : S1024.Idx → EReal) (a17 : Mat 2048 1024) (a18 : S1024.Idx → EReal)
    (a19 : Mat 2048 1024) (a20 : S1024.Idx → EReal) (a21 : Mat 1024 1024) (a22 : S1024.Idx → EReal)
    (a23 : Mat 1024 1024) (a24 : S1024.Idx → EReal) (a25 : Mat 2048 1024) (a26 : S1024.Idx → EReal) :
    blockParams
      (concatenate S1024x4096 1 [⟨S1024x1024, a3⟩, ⟨S1024x1024, a5⟩, ⟨S1024x1024, a7⟩, ⟨S1024x1024, a23⟩] Gen.concatenates_S1024x1024_S1024x1024_S1024x1024_S1024x1024_S1024x4096_d1)
      (concatenate S1024x2048 1 [⟨S1024x1024, a11⟩, ⟨S1024x1024, a13⟩] Gen.concatenates_S1024x1024_S1024x1024_S1024x2048_d1)
      (concatenate S2048x4096 1 [⟨S2048x1024, a17⟩, ⟨S2048x1024, a19⟩, ⟨S2048x1024, a15⟩, ⟨S2048x1024, a25⟩] Gen.concatenates_S2048x1024_S2048x1024_S2048x1024_S2048x1024_S2048x4096_d1)
      a9 a21
      (shapeCast S1x4096 (concatenate S4096 0 [⟨S1024, a4⟩, ⟨S1024, a6⟩, ⟨S1024, a8⟩, ⟨S1024, a24⟩] Gen.concatenates_S1024_S1024_S1024_S1024_S4096_d0) Gen.shapeCasts_S4096_S1x4096)
      (shapeCast S1x2048 (concatenate S2048 0 [⟨S1024, a12⟩, ⟨S1024, a14⟩] Gen.concatenates_S1024_S1024_S2048_d0) Gen.shapeCasts_S2048_S1x2048)
      (shapeCast S1x4096 (concatenate S4096 0 [⟨S1024, a18⟩, ⟨S1024, a20⟩, ⟨S1024, a16⟩, ⟨S1024, a26⟩] Gen.concatenates_S1024_S1024_S1024_S1024_S4096_d0) Gen.shapeCasts_S4096_S1x4096)
      (shapeCast S1x1024 a10 Gen.shapeCasts_S1024_S1x1024)
      (shapeCast S1x1024 a22 Gen.shapeCasts_S1024_S1x1024)
    = paramsOf a3 a4 a5 a6 a7 a8 a9 a10 a11 a12 a13 a14 a15 a16 a17 a18 a19 a20 a21 a22 a23 a24 a25 a26 := by
  unfold blockParams paramsOf
  rw [Params.mk.injEq]
  exact ⟨piece_concatenate _ _ 0 (by simp) a3 rfl 0 _ rfl,
    rowPiece_concatenate _ _ _ 0 (by simp) a4 rfl 0 _ rfl,
    piece_concatenate _ _ 1 (by simp) a5 rfl 1024 _ rfl,
    rowPiece_concatenate _ _ _ 1 (by simp) a6 rfl 1024 _ rfl,
    piece_concatenate _ _ 2 (by simp) a7 rfl 2048 _ rfl,
    rowPiece_concatenate _ _ _ 2 (by simp) a8 rfl 2048 _ rfl,
    rfl,
    rowPiece_shapeCast a10 _ _,
    piece_concatenate _ _ 0 (by simp) a11 rfl 0 _ rfl,
    rowPiece_concatenate _ _ _ 0 (by simp) a12 rfl 0 _ rfl,
    piece_concatenate _ _ 1 (by simp) a13 rfl 1024 _ rfl,
    rowPiece_concatenate _ _ _ 1 (by simp) a14 rfl 1024 _ rfl,
    piece_concatenate _ _ 2 (by simp) a15 rfl 2048 _ rfl,
    rowPiece_concatenate _ _ _ 2 (by simp) a16 rfl 2048 _ rfl,
    piece_concatenate _ _ 0 (by simp) a17 rfl 0 _ rfl,
    rowPiece_concatenate _ _ _ 0 (by simp) a18 rfl 0 _ rfl,
    piece_concatenate _ _ 1 (by simp) a19 rfl 1024 _ rfl,
    rowPiece_concatenate _ _ _ 1 (by simp) a20 rfl 1024 _ rfl,
    rfl,
    rowPiece_shapeCast a22 _ _,
    piece_concatenate _ _ 3 (by simp) a23 rfl 3072 _ rfl,
    rowPiece_concatenate _ _ _ 3 (by simp) a24 rfl 3072 _ rfl,
    piece_concatenate _ _ 3 (by simp) a25 rfl 3072 _ rfl,
    rowPiece_concatenate _ _ _ 3 (by simp) a26 rfl 3072 _ rfl⟩

variable (m : (ℓ : Loc nD τ sig) → Buf (Elt Ideal) ℓ) (c : Dev nD)

/-! ## A window staged whole reads its array -/

/-- Window 3's block is its whole array at every point. -/
theorem iblk3_eq (t : Fin cfg0.N) : (iblk m c 3 t : S1024x4096.Idx → EReal) = (V m c main_v1 : S1024x4096.Idx → EReal) := by
  funext y
  show (V m c main_v1 : S1024x4096.Idx → EReal) (((cfg0.win 3).blk t).view.emb y) = (V m c main_v1 : S1024x4096.Idx → EReal) y
  refine congrArg (V m c main_v1 : S1024x4096.Idx → EReal) (funext fun a => Fin.ext ?_)
  match a with
  | ⟨0, _⟩ =>
    show win0_3.index t (0 : Fin 2) * 1024 + 1 * (y 0).val = (y 0).val
    rw [show win0_3.index t (0 : Fin 2) = 0 from rfl]; omega
  | ⟨1, _⟩ =>
    show win0_3.index t (1 : Fin 2) * 4096 + 1 * (y 1).val = (y 1).val
    rw [show win0_3.index t (1 : Fin 2) = 0 from rfl]; omega

/-- Window 4's block is its whole array at every point. -/
theorem iblk4_eq (t : Fin cfg0.N) : (iblk m c 4 t : S1024x2048.Idx → EReal) = (V m c main_v3 : S1024x2048.Idx → EReal) := by
  funext y
  show (V m c main_v3 : S1024x2048.Idx → EReal) (((cfg0.win 4).blk t).view.emb y) = (V m c main_v3 : S1024x2048.Idx → EReal) y
  refine congrArg (V m c main_v3 : S1024x2048.Idx → EReal) (funext fun a => Fin.ext ?_)
  match a with
  | ⟨0, _⟩ =>
    show win0_4.index t (0 : Fin 2) * 1024 + 1 * (y 0).val = (y 0).val
    rw [show win0_4.index t (0 : Fin 2) = 0 from rfl]; omega
  | ⟨1, _⟩ =>
    show win0_4.index t (1 : Fin 2) * 2048 + 1 * (y 1).val = (y 1).val
    rw [show win0_4.index t (1 : Fin 2) = 0 from rfl]; omega

/-- Window 5's block is its whole array at every point. -/
theorem iblk5_eq (t : Fin cfg0.N) : (iblk m c 5 t : S2048x4096.Idx → EReal) = (V m c main_v5 : S2048x4096.Idx → EReal) := by
  funext y
  show (V m c main_v5 : S2048x4096.Idx → EReal) (((cfg0.win 5).blk t).view.emb y) = (V m c main_v5 : S2048x4096.Idx → EReal) y
  refine congrArg (V m c main_v5 : S2048x4096.Idx → EReal) (funext fun a => Fin.ext ?_)
  match a with
  | ⟨0, _⟩ =>
    show win0_5.index t (0 : Fin 2) * 2048 + 1 * (y 0).val = (y 0).val
    rw [show win0_5.index t (0 : Fin 2) = 0 from rfl]; omega
  | ⟨1, _⟩ =>
    show win0_5.index t (1 : Fin 2) * 4096 + 1 * (y 1).val = (y 1).val
    rw [show win0_5.index t (1 : Fin 2) = 0 from rfl]; omega

/-- Window 6's block is its whole array at every point. -/
theorem iblk6_eq (t : Fin cfg0.N) : (iblk m c 6 t : S1024x1024.Idx → EReal) = (V m c main_v6 : S1024x1024.Idx → EReal) := by
  funext y
  show (V m c main_v6 : S1024x1024.Idx → EReal) (((cfg0.win 6).blk t).view.emb y) = (V m c main_v6 : S1024x1024.Idx → EReal) y
  refine congrArg (V m c main_v6 : S1024x1024.Idx → EReal) (funext fun a => Fin.ext ?_)
  match a with
  | ⟨0, _⟩ =>
    show win0_6.index t (0 : Fin 2) * 1024 + 1 * (y 0).val = (y 0).val
    rw [show win0_6.index t (0 : Fin 2) = 0 from rfl]; omega
  | ⟨1, _⟩ =>
    show win0_6.index t (1 : Fin 2) * 1024 + 1 * (y 1).val = (y 1).val
    rw [show win0_6.index t (1 : Fin 2) = 0 from rfl]; omega

/-- Window 7's block is its whole array at every point. -/
theorem iblk7_eq (t : Fin cfg0.N) : (iblk m c 7 t : S1024x1024.Idx → EReal) = (V m c main_v7 : S1024x1024.Idx → EReal) := by
  funext y
  show (V m c main_v7 : S1024x1024.Idx → EReal) (((cfg0.win 7).blk t).view.emb y) = (V m c main_v7 : S1024x1024.Idx → EReal) y
  refine congrArg (V m c main_v7 : S1024x1024.Idx → EReal) (funext fun a => Fin.ext ?_)
  match a with
  | ⟨0, _⟩ =>
    show win0_7.index t (0 : Fin 2) * 1024 + 1 * (y 0).val = (y 0).val
    rw [show win0_7.index t (0 : Fin 2) = 0 from rfl]; omega
  | ⟨1, _⟩ =>
    show win0_7.index t (1 : Fin 2) * 1024 + 1 * (y 1).val = (y 1).val
    rw [show win0_7.index t (1 : Fin 2) = 0 from rfl]; omega

/-- Window 8's block is its whole array at every point. -/
theorem iblk8_eq (t : Fin cfg0.N) : (iblk m c 8 t : S1x4096.Idx → EReal) = (V m c main_v9 : S1x4096.Idx → EReal) := by
  funext y
  show (V m c main_v9 : S1x4096.Idx → EReal) (((cfg0.win 8).blk t).view.emb y) = (V m c main_v9 : S1x4096.Idx → EReal) y
  refine congrArg (V m c main_v9 : S1x4096.Idx → EReal) (funext fun a => Fin.ext ?_)
  match a with
  | ⟨0, _⟩ =>
    show win0_8.index t (0 : Fin 2) * 1 + 1 * (y 0).val = (y 0).val
    rw [show win0_8.index t (0 : Fin 2) = 0 from rfl]; omega
  | ⟨1, _⟩ =>
    show win0_8.index t (1 : Fin 2) * 4096 + 1 * (y 1).val = (y 1).val
    rw [show win0_8.index t (1 : Fin 2) = 0 from rfl]; omega

/-- Window 9's block is its whole array at every point. -/
theorem iblk9_eq (t : Fin cfg0.N) : (iblk m c 9 t : S1x2048.Idx → EReal) = (V m c main_v11 : S1x2048.Idx → EReal) := by
  funext y
  show (V m c main_v11 : S1x2048.Idx → EReal) (((cfg0.win 9).blk t).view.emb y) = (V m c main_v11 : S1x2048.Idx → EReal) y
  refine congrArg (V m c main_v11 : S1x2048.Idx → EReal) (funext fun a => Fin.ext ?_)
  match a with
  | ⟨0, _⟩ =>
    show win0_9.index t (0 : Fin 2) * 1 + 1 * (y 0).val = (y 0).val
    rw [show win0_9.index t (0 : Fin 2) = 0 from rfl]; omega
  | ⟨1, _⟩ =>
    show win0_9.index t (1 : Fin 2) * 2048 + 1 * (y 1).val = (y 1).val
    rw [show win0_9.index t (1 : Fin 2) = 0 from rfl]; omega

/-- Window 10's block is its whole array at every point. -/
theorem iblk10_eq (t : Fin cfg0.N) : (iblk m c 10 t : S1x4096.Idx → EReal) = (V m c main_v13 : S1x4096.Idx → EReal) := by
  funext y
  show (V m c main_v13 : S1x4096.Idx → EReal) (((cfg0.win 10).blk t).view.emb y) = (V m c main_v13 : S1x4096.Idx → EReal) y
  refine congrArg (V m c main_v13 : S1x4096.Idx → EReal) (funext fun a => Fin.ext ?_)
  match a with
  | ⟨0, _⟩ =>
    show win0_10.index t (0 : Fin 2) * 1 + 1 * (y 0).val = (y 0).val
    rw [show win0_10.index t (0 : Fin 2) = 0 from rfl]; omega
  | ⟨1, _⟩ =>
    show win0_10.index t (1 : Fin 2) * 4096 + 1 * (y 1).val = (y 1).val
    rw [show win0_10.index t (1 : Fin 2) = 0 from rfl]; omega

/-- Window 11's block is its whole array at every point. -/
theorem iblk11_eq (t : Fin cfg0.N) : (iblk m c 11 t : S1x1024.Idx → EReal) = (V m c main_v14 : S1x1024.Idx → EReal) := by
  funext y
  show (V m c main_v14 : S1x1024.Idx → EReal) (((cfg0.win 11).blk t).view.emb y) = (V m c main_v14 : S1x1024.Idx → EReal) y
  refine congrArg (V m c main_v14 : S1x1024.Idx → EReal) (funext fun a => Fin.ext ?_)
  match a with
  | ⟨0, _⟩ =>
    show win0_11.index t (0 : Fin 2) * 1 + 1 * (y 0).val = (y 0).val
    rw [show win0_11.index t (0 : Fin 2) = 0 from rfl]; omega
  | ⟨1, _⟩ =>
    show win0_11.index t (1 : Fin 2) * 1024 + 1 * (y 1).val = (y 1).val
    rw [show win0_11.index t (1 : Fin 2) = 0 from rfl]; omega

/-- Window 12's block is its whole array at every point. -/
theorem iblk12_eq (t : Fin cfg0.N) : (iblk m c 12 t : S1x1024.Idx → EReal) = (V m c main_v15 : S1x1024.Idx → EReal) := by
  funext y
  show (V m c main_v15 : S1x1024.Idx → EReal) (((cfg0.win 12).blk t).view.emb y) = (V m c main_v15 : S1x1024.Idx → EReal) y
  refine congrArg (V m c main_v15 : S1x1024.Idx → EReal) (funext fun a => Fin.ext ?_)
  match a with
  | ⟨0, _⟩ =>
    show win0_12.index t (0 : Fin 2) * 1 + 1 * (y 0).val = (y 0).val
    rw [show win0_12.index t (0 : Fin 2) = 0 from rfl]; omega
  | ⟨1, _⟩ =>
    show win0_12.index t (1 : Fin 2) * 1024 + 1 * (y 1).val = (y 1).val
    rw [show win0_12.index t (1 : Fin 2) = 0 from rfl]; omega

/-! ## The arrays the region finds, as the host operations built them -/

/-- The input-side matrices side by side. -/
theorem V_main_v1 : (V m c main_v1 : S1024x4096.Idx → EReal)
    = concatenate S1024x4096 1 [⟨S1024x1024, m ((c.tc : Thread nD τ).loc main_arg3)⟩, ⟨S1024x1024, m ((c.tc : Thread nD τ).loc main_arg5)⟩, ⟨S1024x1024, m ((c.tc : Thread nD τ).loc main_arg7)⟩, ⟨S1024x1024, m ((c.tc : Thread nD τ).loc main_arg23)⟩] Gen.concatenates_S1024x1024_S1024x1024_S1024x1024_S1024x1024_S1024x4096_d1 := by
  dsimp only [V, hostOps0]; after_results; rfl

/-- The state-side matrices side by side. -/
theorem V_main_v3 : (V m c main_v3 : S1024x2048.Idx → EReal)
    = concatenate S1024x2048 1 [⟨S1024x1024, m ((c.tc : Thread nD τ).loc main_arg11)⟩, ⟨S1024x1024, m ((c.tc : Thread nD τ).loc main_arg13)⟩] Gen.concatenates_S1024x1024_S1024x1024_S1024x2048_d1 := by
  dsimp only [V, hostOps0]; after_results; rfl

/-- The context-side matrices side by side. -/
theorem V_main_v5 : (V m c main_v5 : S2048x4096.Idx → EReal)
    = concatenate S2048x4096 1 [⟨S2048x1024, m ((c.tc : Thread nD τ).loc main_arg17)⟩, ⟨S2048x1024, m ((c.tc : Thread nD τ).loc main_arg19)⟩, ⟨S2048x1024, m ((c.tc : Thread nD τ).loc main_arg15)⟩, ⟨S2048x1024, m ((c.tc : Thread nD τ).loc main_arg25)⟩] Gen.concatenates_S2048x1024_S2048x1024_S2048x1024_S2048x1024_S2048x4096_d1 := by
  dsimp only [V, hostOps0]; after_results; rfl

/-- The candidate's state-side matrix alone. -/
theorem V_main_v6 : (V m c main_v6 : S1024x1024.Idx → EReal) = m ((c.tc : Thread nD τ).loc main_arg9) := by
  dsimp only [V, hostOps0]; after_results; rfl

/-- The output layer's state-side matrix alone. -/
theorem V_main_v7 : (V m c main_v7 : S1024x1024.Idx → EReal) = m ((c.tc : Thread nD τ).loc main_arg21) := by
  dsimp only [V, hostOps0]; after_results; rfl

/-- The input-side biases end to end, as one row. -/
theorem V_main_v9 : (V m c main_v9 : S1x4096.Idx → EReal)
    = shapeCast S1x4096 (concatenate S4096 0 [⟨S1024, m ((c.tc : Thread nD τ).loc main_arg4)⟩, ⟨S1024, m ((c.tc : Thread nD τ).loc main_arg6)⟩, ⟨S1024, m ((c.tc : Thread nD τ).loc main_arg8)⟩, ⟨S1024, m ((c.tc : Thread nD τ).loc main_arg24)⟩] Gen.concatenates_S1024_S1024_S1024_S1024_S4096_d0) Gen.shapeCasts_S4096_S1x4096 := by
  dsimp only [V, hostOps0]; after_results; rfl

/-- The state-side biases end to end, as one row. -/
theorem V_main_v11 : (V m c main_v11 : S1x2048.Idx → EReal)
    = shapeCast S1x2048 (concatenate S2048 0 [⟨S1024, m ((c.tc : Thread nD τ).loc main_arg12)⟩, ⟨S1024, m ((c.tc : Thread nD τ).loc main_arg14)⟩] Gen.concatenates_S1024_S1024_S2048_d0) Gen.shapeCasts_S2048_S1x2048 := by
  dsimp only [V, hostOps0]; after_results; rfl

/-- The context-side biases end to end, as one row. -/
theorem V_main_v13 : (V m c main_v13 : S1x4096.Idx → EReal)
    = shapeCast S1x4096 (concatenate S4096 0 [⟨S1024, m ((c.tc : Thread nD τ).loc main_arg18)⟩, ⟨S1024, m ((c.tc : Thread nD τ).loc main_arg20)⟩, ⟨S1024, m ((c.tc : Thread nD τ).loc main_arg16)⟩, ⟨S1024, m ((c.tc : Thread nD τ).loc main_arg26)⟩] Gen.concatenates_S1024_S1024_S1024_S1024_S4096_d0) Gen.shapeCasts_S4096_S1x4096 := by
  dsimp only [V, hostOps0]; after_results; rfl

/-- The candidate's state-side bias, as one row. -/
theorem V_main_v14 : (V m c main_v14 : S1x1024.Idx → EReal) = shapeCast S1x1024 (m ((c.tc : Thread nD τ).loc main_arg10)) Gen.shapeCasts_S1024_S1x1024 := by
  dsimp only [V, hostOps0]; after_results; rfl

/-- The output layer's state-side bias, as one row. -/
theorem V_main_v15 : (V m c main_v15 : S1x1024.Idx → EReal) = shapeCast S1x1024 (m ((c.tc : Thread nD τ).loc main_arg22)) Gen.shapeCasts_S1024_S1x1024 := by
  dsimp only [V, hostOps0]; after_results; rfl

/-! ## The parameters at a grid point -/

/-- The parameters read off the ten parameter blocks of any grid point are the twenty-four parameter arrays as launched. -/
theorem blockParams_entry (t : Fin cfg0.N) :
    blockParams (iblk m c 3 t) (iblk m c 4 t) (iblk m c 5 t) (iblk m c 6 t) (iblk m c 7 t) (iblk m c 8 t) (iblk m c 9 t)
        (iblk m c 10 t) (iblk m c 11 t) (iblk m c 12 t)
      = paramsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))
          (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) := by
  rw [iblk3_eq m c t, iblk4_eq m c t, iblk5_eq m c t, iblk6_eq m c t, iblk7_eq m c t, iblk8_eq m c t, iblk9_eq m c t,
    iblk10_eq m c t, iblk11_eq m c t, iblk12_eq m c t,
    V_main_v1 m c, V_main_v3 m c, V_main_v5 m c, V_main_v6 m c, V_main_v7 m c, V_main_v9 m c, V_main_v11 m c,
    V_main_v13 m c, V_main_v14 m c, V_main_v15 m c]
  exact blockParams_fused _ _ _ _ _ _ _ _ _ _ _ _ _ _ _ _ _ _ _ _ _ _ _ _

end Cert.KernelIdeal.Hand

end
-- ==== Proof.KernelValue.lean ====
/-
  From blocks to the arrays. Grid point `t` stages rows `256 t … 256 t + 255` of the three activations and writes back
  the same rows of the two results; the sixty-four blocks tile the 16384 rows. The body leaves in each output buffer the
  cell of its three activation blocks at the parameters the fused operands hold, and those are the launched parameters;
  the cell is row-local, so the block of the cell on all rows. Hence each result array ends at the cell of the whole
  argument arrays.
-/
import proofs.«118329_j35837207118456_2_alg».proof.Proof.RunIdeal
import proofs.«118329_j35837207118456_2_alg».proof.Proof.BlockCell
import proofs.«118329_j35837207118456_2_alg».proof.Proof.CellRows
import proofs.«118329_j35837207118456_2_alg».proof.Proof.EntryParams

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)
open Cert.Cell

variable (m : (ℓ : Loc nD τ sig) → Buf (Elt Ideal) ℓ) (ρ : Dev nD → PrngReg)

/-- The parameters as launched. -/
def params (c : Dev nD) : Params := paramsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))

/-- The new state of all rows. -/
def stateAll (c : Dev nD) : S16384x1024.Idx → EReal :=
  state (M := 16384) (params m c) (m ((c.tc : Thread nD τ).loc main_arg0)) (m ((c.tc : Thread nD τ).loc main_arg1)) (m ((c.tc : Thread nD τ).loc main_arg2))

/-- The output layer of all rows. -/
def layerAll (c : Dev nD) : S16384x1024.Idx → EReal :=
  outLayer (M := 16384) (params m c) (m ((c.tc : Thread nD τ).loc main_arg0)) (m ((c.tc : Thread nD τ).loc main_arg1)) (m ((c.tc : Thread nD τ).loc main_arg2))

/-- The index maps over the grid: the three activations and the two results move down one block of rows per point
    and stay in column block zero. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_13.index t (0 : Fin 2) = t.val ∧ win0_13.index t (1 : Fin 2) = 0
    ∧ win0_14.index t (0 : Fin 2) = t.val ∧ win0_14.index t (1 : Fin 2) = 0 :=
  (by decide +kernel : ∀ t : Fin grid0.N, _)

/-- Row `j 0` of activation window 0's block at point `t` is row `256 t + j 0` of the array. -/
theorem emb_row0 (t : Fin cfg0.N) (j : S256x1024.Idx) (k : Fin 1024) :
    ((cfg0.win 0).blk t).view.emb (ix2 (j 0) k) = ix2 ((((cfg0.win 13).blk t).view.emb j) 0) k := by
  obtain ⟨e0, e0', e1, e1', e2, e2', e13, e13', e14, e14'⟩ := idx_rows t
  funext a; apply Fin.ext
  match a with
  | ⟨0, _⟩ => show win0_0.index t (0 : Fin 2) * 256 + 1 * (j 0).val = win0_13.index t (0 : Fin 2) * 256 + 1 * (j 0).val; omega
  | ⟨1, _⟩ => show win0_0.index t (1 : Fin 2) * 1024 + 1 * k.val = k.val; omega

theorem block_row0 (c : Dev nD) (t : Fin cfg0.N) (j : S256x1024.Idx) (k : Fin 1024) :
    iblk m c 0 t (ix2 (j 0) k) = m ((c.tc : Thread nD τ).loc main_arg0) (ix2 ((((cfg0.win 13).blk t).view.emb j) 0) k) :=
  (congrFun (V_main_arg0 m c) (((cfg0.win 0).blk t).view.emb (ix2 (j 0) k))).trans
    (congrArg (m ((c.tc : Thread nD τ).loc main_arg0)) (emb_row0 t j k))

/-- Row `j 0` of activation window 1's block at point `t` is row `256 t + j 0` of the array. -/
theorem emb_row1 (t : Fin cfg0.N) (j : S256x1024.Idx) (k : Fin 1024) :
    ((cfg0.win 1).blk t).view.emb (ix2 (j 0) k) = ix2 ((((cfg0.win 13).blk t).view.emb j) 0) k := by
  obtain ⟨e0, e0', e1, e1', e2, e2', e13, e13', e14, e14'⟩ := idx_rows t
  funext a; apply Fin.ext
  match a with
  | ⟨0, _⟩ => show win0_1.index t (0 : Fin 2) * 256 + 1 * (j 0).val = win0_13.index t (0 : Fin 2) * 256 + 1 * (j 0).val; omega
  | ⟨1, _⟩ => show win0_1.index t (1 : Fin 2) * 1024 + 1 * k.val = k.val; omega

theorem block_row1 (c : Dev nD) (t : Fin cfg0.N) (j : S256x1024.Idx) (k : Fin 1024) :
    iblk m c 1 t (ix2 (j 0) k) = m ((c.tc : Thread nD τ).loc main_arg1) (ix2 ((((cfg0.win 13).blk t).view.emb j) 0) k) :=
  (congrFun (V_main_arg1 m c) (((cfg0.win 1).blk t).view.emb (ix2 (j 0) k))).trans
    (congrArg (m ((c.tc : Thread nD τ).loc main_arg1)) (emb_row1 t j k))

/-- Row `j 0` of activation window 2's block at point `t` is row `256 t + j 0` of the array. -/
theorem emb_row2 (t : Fin cfg0.N) (j : S256x1024.Idx) (k : Fin 2048) :
    ((cfg0.win 2).blk t).view.emb (ix2 (j 0) k) = ix2 ((((cfg0.win 13).blk t).view.emb j) 0) k := by
  obtain ⟨e0, e0', e1, e1', e2, e2', e13, e13', e14, e14'⟩ := idx_rows t
  funext a; apply Fin.ext
  match a with
  | ⟨0, _⟩ => show win0_2.index t (0 : Fin 2) * 256 + 1 * (j 0).val = win0_13.index t (0 : Fin 2) * 256 + 1 * (j 0).val; omega
  | ⟨1, _⟩ => show win0_2.index t (1 : Fin 2) * 2048 + 1 * k.val = k.val; omega

theorem block_row2 (c : Dev nD) (t : Fin cfg0.N) (j : S256x1024.Idx) (k : Fin 2048) :
    iblk m c 2 t (ix2 (j 0) k) = m ((c.tc : Thread nD τ).loc main_arg2) (ix2 ((((cfg0.win 13).blk t).view.emb j) 0) k) :=
  (congrFun (V_main_arg2 m c) (((cfg0.win 2).blk t).view.emb (ix2 (j 0) k))).trans
    (congrArg (m ((c.tc : Thread nD τ).loc main_arg2)) (emb_row2 t j k))

/-- The two results' blocks at a point start at the same row. -/
theorem emb_same (t : Fin cfg0.N) (j : S256x1024.Idx) :
    (((cfg0.win 13).blk t).view.emb j) 0 = (((cfg0.win 14).blk t).view.emb j) 0 := by
  obtain ⟨e0, e0', e1, e1', e2, e2', e13, e13', e14, e14'⟩ := idx_rows t
  apply Fin.ext
  show win0_13.index t (0 : Fin 2) * 256 + 1 * (j 0).val = win0_14.index t (0 : Fin 2) * 256 + 1 * (j 0).val
  omega

theorem emb_col13 (t : Fin cfg0.N) (j : S256x1024.Idx) : (j 1).val = ((((cfg0.win 13).blk t).view.emb j) 1).val := by
  obtain ⟨e0, e0', e1, e1', e2, e2', e13, e13', e14, e14'⟩ := idx_rows t
  show (j 1).val = win0_13.index t (1 : Fin 2) * 1024 + 1 * (j 1).val
  omega

theorem emb_col14 (t : Fin cfg0.N) (j : S256x1024.Idx) : (j 1).val = ((((cfg0.win 14).blk t).view.emb j) 1).val := by
  obtain ⟨e0, e0', e1, e1', e2, e2', e13, e13', e14, e14'⟩ := idx_rows t
  show (j 1).val = win0_14.index t (1 : Fin 2) * 1024 + 1 * (j 1).val
  omega

/-! ## Output window 13 -/

/-- What point `t` writes back is block `t` of the cell's new state on all rows. -/
theorem flushed13_eq (c : Dev nD) (t : Fin cfg0.N) :
    (dats m 0 c).flushed 13 t = ((cfg0.win 13).blk t).view.read (Elt Ideal) (stateAll m c) := by
  show (cfg0.win 13).cut (grid0.coords t) ((dats m 0 c).after 13 t) = _
  rw [after0_13]
  unfold out0_13
  rw [View.canon_unit_zero hz, stateTerm_eq, blockParams_entry]
  funext j
  exact state_eq_of_row (params m c) (iblk m c 0 t) (iblk m c 1 t) (iblk m c 2 t) _ _ _ j (((cfg0.win 13).blk t).view.emb j)
    (emb_col13 t j) (fun k => block_row0 m c t j k)
    (fun k => block_row1 m c t j k)
    (fun k => block_row2 m c t j k)

theorem mem_blk13 (t : Fin cfg0.N) (i : S16384x1024.Idx) :
    i ∈ ((cfg0.win 13).blk t).view.set ↔ ∀ a : Fin 2, win0_13.index t a * S256x1024.size a ≤ (i a).val ∧ (i a).val < win0_13.index t a * S256x1024.size a + S256x1024.size a := by
  show i ∈ ((View.whole main_v16_0).slice (win0_13.rect t)).set ↔ _
  rw [View.set_slice_whole, Rect.mem_set_unit]
  exact Iff.rfl

theorem idx_onto13 : ∀ q0 : Fin 64, ∃ t : Fin cfg0.N, win0_13.index t = ![q0.val, 0] :=
  (by decide +kernel : ∀ q0 : Fin 64, ∃ t : Fin grid0.N, win0_13.index t = ![q0.val, 0])

/-- Every row lies in the block of the point `row / 256`. -/
theorem cover13 (i : S16384x1024.Idx) : ∃ t : Fin cfg0.N, (cfg0.win 13).flush t = true ∧ i ∈ ((cfg0.win 13).blk t).view.set := by
  have hi0 : (i 0).val < 16384 := (i 0).isLt
  have hi1 : (i 1).val < 1024 := (i 1).isLt
  obtain ⟨t, ht⟩ := idx_onto13 ⟨(i 0).val / 256, by omega⟩
  have q0 : win0_13.index t (0 : Fin 2) = (i 0).val / 256 := congrFun ht 0
  have q1 : win0_13.index t (1 : Fin 2) = 0 := congrFun ht 1
  refine ⟨t, flush0_13 t, ?_⟩
  rw [mem_blk13]
  intro a
  match a with
  | ⟨0, _⟩ => show win0_13.index t (0 : Fin 2) * 256 ≤ (i 0).val ∧ (i 0).val < win0_13.index t (0 : Fin 2) * 256 + 256; omega
  | ⟨1, _⟩ => show win0_13.index t (1 : Fin 2) * 1024 ≤ (i 1).val ∧ (i 1).val < win0_13.index t (1 : Fin 2) * 1024 + 1024; omega

/-- The array after the run. -/
theorem final13 (c : Dev nD) : (dats m 0 c).arrAt 13 cfg0.N = stateAll m c :=
  (dats m 0 c).arrAt_eq_of_cover 13 (stateAll m c) (fun t _ => flushed13_eq m c t) cover13

/-! ## Output window 14 -/

/-- What point `t` writes back is block `t` of the cell's output layer on all rows. -/
theorem flushed14_eq (c : Dev nD) (t : Fin cfg0.N) :
    (dats m 0 c).flushed 14 t = ((cfg0.win 14).blk t).view.read (Elt Ideal) (layerAll m c) := by
  show (cfg0.win 14).cut (grid0.coords t) ((dats m 0 c).after 14 t) = _
  rw [after0_14]
  unfold out0_14
  rw [View.canon_unit_zero hz, layerTerm_eq, blockParams_entry]
  funext j
  exact outLayer_eq_of_row (params m c) (iblk m c 0 t) (iblk m c 1 t) (iblk m c 2 t) _ _ _ j (((cfg0.win 14).blk t).view.emb j)
    (emb_col14 t j) (fun k => (block_row0 m c t j k).trans (congrArg _ (congrArg (fun p => ix2 p k) (emb_same t j))))
    (fun k => (block_row1 m c t j k).trans (congrArg _ (congrArg (fun p => ix2 p k) (emb_same t j))))
    (fun k => (block_row2 m c t j k).trans (congrArg _ (congrArg (fun p => ix2 p k) (emb_same t j))))

theorem mem_blk14 (t : Fin cfg0.N) (i : S16384x1024.Idx) :
    i ∈ ((cfg0.win 14).blk t).view.set ↔ ∀ a : Fin 2, win0_14.index t a * S256x1024.size a ≤ (i a).val ∧ (i a).val < win0_14.index t a * S256x1024.size a + S256x1024.size a := by
  show i ∈ ((View.whole main_v16_1).slice (win0_14.rect t)).set ↔ _
  rw [View.set_slice_whole, Rect.mem_set_unit]
  exact Iff.rfl

theorem idx_onto14 : ∀ q0 : Fin 64, ∃ t : Fin cfg0.N, win0_14.index t = ![q0.val, 0] :=
  (by decide +kernel : ∀ q0 : Fin 64, ∃ t : Fin grid0.N, win0_14.index t = ![q0.val, 0])

/-- Every row lies in the block of the point `row / 256`. -/
theorem cover14 (i : S16384x1024.Idx) : ∃ t : Fin cfg0.N, (cfg0.win 14).flush t = true ∧ i ∈ ((cfg0.win 14).blk t).view.set := by
  have hi0 : (i 0).val < 16384 := (i 0).isLt
  have hi1 : (i 1).val < 1024 := (i 1).isLt
  obtain ⟨t, ht⟩ := idx_onto14 ⟨(i 0).val / 256, by omega⟩
  have q0 : win0_14.index t (0 : Fin 2) = (i 0).val / 256 := congrFun ht 0
  have q1 : win0_14.index t (1 : Fin 2) = 0 := congrFun ht 1
  refine ⟨t, flush0_14 t, ?_⟩
  rw [mem_blk14]
  intro a
  match a with
  | ⟨0, _⟩ => show win0_14.index t (0 : Fin 2) * 256 ≤ (i 0).val ∧ (i 0).val < win0_14.index t (0 : Fin 2) * 256 + 256; omega
  | ⟨1, _⟩ => show win0_14.index t (1 : Fin 2) * 1024 ≤ (i 1).val ∧ (i 1).val < win0_14.index t (1 : Fin 2) * 1024 + 1024; omega

/-- The array after the run. -/
theorem final14 (c : Dev nD) : (dats m 0 c).arrAt 14 cfg0.N = layerAll m c :=
  (dats m 0 c).arrAt_eq_of_cover 14 (layerAll m c) (fun t _ => flushed14_eq m c t) cover14

/-! ## The run, read -/

/-- Every execution ends with the two result arrays at the cell of the argument arrays and the arguments unchanged. -/
theorem run_value : θ_run defs (onTc (τ := τ) (main (F := Ideal))) ⟨m, fun _ => 0, ρ⟩ fun r => ∀ c : Dev nD,
      r.2.mem ((c.tc : Thread nD τ).loc main_v16_0) = stateAll m c
      ∧ r.2.mem ((c.tc : Thread nD τ).loc main_v16_1) = layerAll m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun r h c => ⟨((h c).1 13).trans (final13 m c), ((h c).1 14).trans (final14 m c),
      kept_of m (dats m) (A_eq m) r h c⟩)
    (run_main m ρ)

end Cert.KernelIdeal.Hand

end
-- ==== Proof.RefCell.lean ====
/-
  The reference is the cell. Its two results are compositions of host operations on the whole argument arrays: a
  general dot with one contracted axis is the matrix product; a bias vector broadcast to one row and then down the rows
  is the bias laid along every row, so each of the twelve linear maps is `X · W + b`; the sigmoid the reference spells
  as `1 / (1 + exp (−x))` is the logistic function, the literal 1.0 being the real number one; the maximum against
  the broadcast zero is the cut at zero. Rewritten operation by operation, the first result is the cell's new state and
  the second its output layer, with every sum grouped as the cell groups it.
-/
import proofs.«118329_j35837207118456_2_alg».proof.Proof.CellSpec
import proofs.«118329_j35837207118456_2_alg».proof.Proof.Gen.ReferenceIdeal.Run

set_option maxRecDepth 16384

noncomputable section

namespace Cert.ReferenceIdeal.RefValue

open Idealize.ShloMosaic Idealize.ShloMosaic.ValueIdx Idealize.SL.Sem
open Cert.ReferenceIdeal Cert.ReferenceIdeal.Facts₀ Cert.ReferenceIdeal.Facts Cert.ReferenceIdeal.Value
open Cert.Cell Cert.DenseLib Cert.RowBlocks Cert.LayoutLib

/-- A linear map on 1024 input features. -/
theorem lin1 (X : FVec Ideal S16384x1024 .f32) (W : FVec Ideal S1024x1024 .f32) (b : FVec Ideal S1024 .f32) :
    addf (Host.dotGeneral dot_S16384x1024_S1024x1024_S16384x1024_1_0_0_1_n_n none X W)
      (broadcastInDim S16384x1024 ![0, 1] bcast_S1x1024_S16384x1024_0_1 (broadcastInDim S1x1024 ![1] bcast_S1024_S1x1024_1 b))
    = affine (M := 16384) X W (vec b) := by
  rw [dotGeneral_eq_mm dot_S16384x1024_S1024x1024_S16384x1024_1_0_0_1_n_n rfl, broadcastInDim_eq_rows]
  rfl

/-- A linear map on 2048 input features. -/
theorem lin2 (X : FVec Ideal S16384x2048 .f32) (W : FVec Ideal S2048x1024 .f32) (b : FVec Ideal S1024 .f32) :
    addf (Host.dotGeneral dot_S16384x2048_S2048x1024_S16384x1024_1_0_0_1_n_n none X W)
      (broadcastInDim S16384x1024 ![0, 1] bcast_S1x1024_S16384x1024_0_1 (broadcastInDim S1x1024 ![1] bcast_S1024_S1x1024_1 b))
    = affine (M := 16384) X W (vec b) := by
  rw [dotGeneral_eq_mm dot_S16384x2048_S2048x1024_S16384x1024_1_0_0_1_n_n rfl, broadcastInDim_eq_rows]
  rfl

/-- The broadcast literal 1.0 is the constant one. -/
theorem one_b : broadcastInDim S16384x1024 ![] bcast_S_S16384x1024 (constant (F := Ideal) S_ .f32 0x3F800000#32) = fun _ => (1 : EReal) := by
  funext i
  rw [broadcastInDim_scalar_apply]
  exact IdealRules.sign_bit.ideal_onePat .f32

/-- The spelled-out sigmoid is the logistic function, entry by entry. -/
theorem sigm (X : FVec Ideal S16384x1024 .f32) :
    Host.divf (fun _ => (1 : EReal)) (addf (fun _ => (1 : EReal)) (Host.exp (Host.negf X))) = fun i => Ideal.logistic (X i) := by
  funext i
  rfl

/-- The first result's term, over any arrays of the arguments' shapes. -/
theorem ref_state_term (a0 : FVec Ideal S16384x1024 .f32) (a1 : FVec Ideal S16384x1024 .f32) (a2 : FVec Ideal S16384x2048 .f32) (a3 : FVec Ideal S1024x1024 .f32) (a4 : FVec Ideal S1024 .f32) (a5 : FVec Ideal S1024x1024 .f32) (a6 : FVec Ideal S1024 .f32) (a7 : FVec Ideal S1024x1024 .f32) (a8 : FVec Ideal S1024 .f32) (a9 : FVec Ideal S1024x1024 .f32) (a10 : FVec Ideal S1024 .f32) (a11 : FVec Ideal S1024x1024 .f32) (a12 : FVec Ideal S1024 .f32) (a13 : FVec Ideal S1024x1024 .f32) (a14 : FVec Ideal S1024 .f32) (a15 : FVec Ideal S2048x1024 .f32) (a16 : FVec Ideal S1024 .f32) (a17 : FVec Ideal S2048x1024 .f32) (a18 : FVec Ideal S1024 .f32) (a19 : FVec Ideal S2048x1024 .f32) (a20 : FVec Ideal S1024 .f32) (a21 : FVec Ideal S1024x1024 .f32) (a22 : FVec Ideal S1024 .f32) (a23 : FVec Ideal S1024x1024 .f32) (a24 : FVec Ideal S1024 .f32) (a25 : FVec Ideal S2048x1024 .f32) (a26 : FVec Ideal S1024 .f32) :
    addf (mulf (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (addf (addf (Host.dotGeneral dot_S16384x1024_S1024x1024_S16384x1024_1_0_0_1_n_n none a0 a5) (broadcastInDim S16384x1024 ![0, 1] bcast_S1x1024_S16384x1024_0_1 (broadcastInDim S1x1024 ![1] bcast_S1024_S1x1024_1 a6))) (addf (Host.dotGeneral dot_S16384x1024_S1024x1024_S16384x1024_1_0_0_1_n_n none a1 a11) (broadcastInDim S16384x1024 ![0, 1] bcast_S1x1024_S16384x1024_0_1 (broadcastInDim S1x1024 ![1] bcast_S1024_S1x1024_1 a12)))) (addf (Host.dotGeneral dot_S16384x2048_S2048x1024_S16384x1024_1_0_0_1_n_n none a2 a17) (broadcastInDim S16384x1024 ![0, 1] bcast_S1x1024_S16384x1024_0_1 (broadcastInDim S1x1024 ![1] bcast_S1024_S1x1024_1 a18))))))))) a1) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (addf (addf (Host.dotGeneral dot_S16384x1024_S1024x1024_S16384x1024_1_0_0_1_n_n none a0 a5) (broadcastInDim S16384x1024 ![0, 1] bcast_S1x1024_S16384x1024_0_1 (broadcastInDim S1x1024 ![1] bcast_S1024_S1x1024_1 a6))) (addf (Host.dotGeneral dot_S16384x1024_S1024x1024_S16384x1024_1_0_0_1_n_n none a1 a11) (broadcastInDim S16384x1024 ![0, 1] bcast_S1x1024_S16384x1024_0_1 (broadcastInDim S1x1024 ![1] bcast_S1024_S1x1024_1 a12)))) (addf (Host.dotGeneral dot_S16384x2048_S2048x1024_S16384x1024_1_0_0_1_n_n none a2 a17) (broadcastInDim S16384x1024 ![0, 1] bcast_S1x1024_S16384x1024_0_1 (broadcastInDim S1x1024 ![1] bcast_S1024_S1x1024_1 a18)))))))) (Host.tanh (addf (addf (addf (Host.dotGeneral dot_S16384x1024_S1024x1024_S16384x1024_1_0_0_1_n_n none a0 a3) (broadcastInDim S16384x1024 ![0, 1] bcast_S1x1024_S16384x1024_0_1 (broadcastInDim S1x1024 ![1] bcast_S1024_S1x1024_1 a4))) (addf (Host.dotGeneral dot_S16384x1024_S1024x1024_S16384x1024_1_0_0_1_n_n none (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (addf (addf (Host.dotGeneral dot_S16384x1024_S1024x1024_S16384x1024_1_0_0_1_n_n none a0 a7) (broadcastInDim S16384x1024 ![0, 1] bcast_S1x1024_S16384x1024_0_1 (broadcastInDim S1x1024 ![1] bcast_S1024_S1x1024_1 a8))) (addf (Host.dotGeneral dot_S16384x1024_S1024x1024_S16384x1024_1_0_0_1_n_n none a1 a13) (broadcastInDim S16384x1024 ![0, 1] bcast_S1x1024_S16384x1024_0_1 (broadcastInDim S1x1024 ![1] bcast_S1024_S1x1024_1 a14)))) (addf (Host.dotGeneral dot_S16384x2048_S2048x1024_S16384x1024_1_0_0_1_n_n none a2 a19) (broadcastInDim S16384x1024 ![0, 1] bcast_S1x1024_S16384x1024_0_1 (broadcastInDim S1x1024 ![1] bcast_S1024_S1x1024_1 a20)))))))) a1) a9) (broadcastInDim S16384x1024 ![0, 1] bcast_S1x1024_S16384x1024_0_1 (broadcastInDim S1x1024 ![1] bcast_S1024_S1x1024_1 a10)))) (addf (Host.dotGeneral dot_S16384x2048_S2048x1024_S16384x1024_1_0_0_1_n_n none a2 a15) (broadcastInDim S16384x1024 ![0, 1] bcast_S1x1024_S16384x1024_0_1 (broadcastInDim S1x1024 ![1] bcast_S1024_S1x1024_1 a16))))))
    = state (M := 16384) (paramsOf a3 a4 a5 a6 a7 a8 a9 a10 a11 a12 a13 a14 a15 a16 a17 a18 a19 a20 a21 a22 a23 a24 a25 a26) a0 a1 a2 := by
  rw [lin1 a0 a5 a6, lin1 a1 a11 a12, lin2 a2 a17 a18, lin1 a0 a7 a8, lin1 a1 a13 a14, lin2 a2 a19 a20, lin1 a0 a3 a4, lin2 a2 a15 a16, lin1 _ a9 a10, one_b, sigm, sigm]
  rfl

/-- The second result's term, over any arrays of the arguments' shapes. -/
theorem ref_layer_term (a0 : FVec Ideal S16384x1024 .f32) (a1 : FVec Ideal S16384x1024 .f32) (a2 : FVec Ideal S16384x2048 .f32) (a3 : FVec Ideal S1024x1024 .f32) (a4 : FVec Ideal S1024 .f32) (a5 : FVec Ideal S1024x1024 .f32) (a6 : FVec Ideal S1024 .f32) (a7 : FVec Ideal S1024x1024 .f32) (a8 : FVec Ideal S1024 .f32) (a9 : FVec Ideal S1024x1024 .f32) (a10 : FVec Ideal S1024 .f32) (a11 : FVec Ideal S1024x1024 .f32) (a12 : FVec Ideal S1024 .f32) (a13 : FVec Ideal S1024x1024 .f32) (a14 : FVec Ideal S1024 .f32) (a15 : FVec Ideal S2048x1024 .f32) (a16 : FVec Ideal S1024 .f32) (a17 : FVec Ideal S2048x1024 .f32) (a18 : FVec Ideal S1024 .f32) (a19 : FVec Ideal S2048x1024 .f32) (a20 : FVec Ideal S1024 .f32) (a21 : FVec Ideal S1024x1024 .f32) (a22 : FVec Ideal S1024 .f32) (a23 : FVec Ideal S1024x1024 .f32) (a24 : FVec Ideal S1024 .f32) (a25 : FVec Ideal S2048x1024 .f32) (a26 : FVec Ideal S1024 .f32) :
    maximumf (addf (addf (addf (Host.dotGeneral dot_S16384x1024_S1024x1024_S16384x1024_1_0_0_1_n_n none (addf (mulf (subf (broadcastInDim S16384x1024 ![] bcast_S_S16384x1024 (constant S_ .f32 0x3F800000#32)) (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (addf (addf (Host.dotGeneral dot_S16384x1024_S1024x1024_S16384x1024_1_0_0_1_n_n none a0 a5) (broadcastInDim S16384x1024 ![0, 1] bcast_S1x1024_S16384x1024_0_1 (broadcastInDim S1x1024 ![1] bcast_S1024_S1x1024_1 a6))) (addf (Host.dotGeneral dot_S16384x1024_S1024x1024_S16384x1024_1_0_0_1_n_n none a1 a11) (broadcastInDim S16384x1024 ![0, 1] bcast_S1x1024_S16384x1024_0_1 (broadcastInDim S1x1024 ![1] bcast_S1024_S1x1024_1 a12)))) (addf (Host.dotGeneral dot_S16384x2048_S2048x1024_S16384x1024_1_0_0_1_n_n none a2 a17) (broadcastInDim S16384x1024 ![0, 1] bcast_S1x1024_S16384x1024_0_1 (broadcastInDim S1x1024 ![1] bcast_S1024_S1x1024_1 a18))))))))) a1) (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (addf (addf (Host.dotGeneral dot_S16384x1024_S1024x1024_S16384x1024_1_0_0_1_n_n none a0 a5) (broadcastInDim S16384x1024 ![0, 1] bcast_S1x1024_S16384x1024_0_1 (broadcastInDim S1x1024 ![1] bcast_S1024_S1x1024_1 a6))) (addf (Host.dotGeneral dot_S16384x1024_S1024x1024_S16384x1024_1_0_0_1_n_n none a1 a11) (broadcastInDim S16384x1024 ![0, 1] bcast_S1x1024_S16384x1024_0_1 (broadcastInDim S1x1024 ![1] bcast_S1024_S1x1024_1 a12)))) (addf (Host.dotGeneral dot_S16384x2048_S2048x1024_S16384x1024_1_0_0_1_n_n none a2 a17) (broadcastInDim S16384x1024 ![0, 1] bcast_S1x1024_S16384x1024_0_1 (broadcastInDim S1x1024 ![1] bcast_S1024_S1x1024_1 a18)))))))) (Host.tanh (addf (addf (addf (Host.dotGeneral dot_S16384x1024_S1024x1024_S16384x1024_1_0_0_1_n_n none a0 a3) (broadcastInDim S16384x1024 ![0, 1] bcast_S1x1024_S16384x1024_0_1 (broadcastInDim S1x1024 ![1] bcast_S1024_S1x1024_1 a4))) (addf (Host.dotGeneral dot_S16384x1024_S1024x1024_S16384x1024_1_0_0_1_n_n none (mulf (Host.divf (broadcastInDim S16384x1024 ![] bcast_S_S16384x1024 (constant S_ .f32 0x3F800000#32)) (addf (broadcastInDim S16384x1024 ![] bcast_S_S16384x1024 (constant S_ .f32 0x3F800000#32)) (Host.exp (Host.negf (addf (addf (addf (Host.dotGeneral dot_S16384x1024_S1024x1024_S16384x1024_1_0_0_1_n_n none a0 a7) (broadcastInDim S16384x1024 ![0, 1] bcast_S1x1024_S16384x1024_0_1 (broadcastInDim S1x1024 ![1] bcast_S1024_S1x1024_1 a8))) (addf (Host.dotGeneral dot_S16384x1024_S1024x1024_S16384x1024_1_0_0_1_n_n none a1 a13) (broadcastInDim S16384x1024 ![0, 1] bcast_S1x1024_S16384x1024_0_1 (broadcastInDim S1x1024 ![1] bcast_S1024_S1x1024_1 a14)))) (addf (Host.dotGeneral dot_S16384x2048_S2048x1024_S16384x1024_1_0_0_1_n_n none a2 a19) (broadcastInDim S16384x1024 ![0, 1] bcast_S1x1024_S16384x1024_0_1 (broadcastInDim S1x1024 ![1] bcast_S1024_S1x1024_1 a20)))))))) a1) a9) (broadcastInDim S16384x1024 ![0, 1] bcast_S1x1024_S16384x1024_0_1 (broadcastInDim S1x1024 ![1] bcast_S1024_S1x1024_1 a10)))) (addf (Host.dotGeneral dot_S16384x2048_S2048x1024_S16384x1024_1_0_0_1_n_n none a2 a15) (broadcastInDim S16384x1024 ![0, 1] bcast_S1x1024_S16384x1024_0_1 (broadcastInDim S1x1024 ![1] bcast_S1024_S1x1024_1 a16))))))) a21) (broadcastInDim S16384x1024 ![0, 1] bcast_S1x1024_S16384x1024_0_1 (broadcastInDim S1x1024 ![1] bcast_S1024_S1x1024_1 a22))) (addf (Host.dotGeneral dot_S16384x1024_S1024x1024_S16384x1024_1_0_0_1_n_n none a0 a23) (broadcastInDim S16384x1024 ![0, 1] bcast_S1x1024_S16384x1024_0_1 (broadcastInDim S1x1024 ![1] bcast_S1024_S1x1024_1 a24)))) (addf (Host.dotGeneral dot_S16384x2048_S2048x1024_S16384x1024_1_0_0_1_n_n none a2 a25) (broadcastInDim S16384x1024 ![0, 1] bcast_S1x1024_S16384x1024_0_1 (broadcastInDim S1x1024 ![1] bcast_S1024_S1x1024_1 a26)))) (broadcastInDim S16384x1024 ![] bcast_S_S16384x1024 (constant S_ .f32 0x00000000#32))
    = outLayer (M := 16384) (paramsOf a3 a4 a5 a6 a7 a8 a9 a10 a11 a12 a13 a14 a15 a16 a17 a18 a19 a20 a21 a22 a23 a24 a25 a26) a0 a1 a2 := by
  rw [lin1 a0 a5 a6, lin1 a1 a11 a12, lin2 a2 a17 a18, lin1 a0 a7 a8, lin1 a1 a13 a14, lin2 a2 a19 a20, lin1 a0 a3 a4, lin2 a2 a15 a16, lin1 _ a9 a10, lin1 a0 a23 a24, lin2 a2 a25 a26, lin1 _ a21 a22, one_b, sigm, sigm, maximumf_bcast_zero]
  rfl

/-- The reference's first result is the cell's new state of its arguments. -/
theorem ref_state (m : (ℓ : Loc nD τ sig) → Buf (Elt Ideal) ℓ) (c : Dev nD) :
    res_main_v60 (F := Ideal) m c
      = state (M := 16384) (paramsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))) (m ((c.tc : Thread nD τ).loc main_arg0)) (m ((c.tc : Thread nD τ).loc main_arg1)) (m ((c.tc : Thread nD τ).loc main_arg2)) := by
  unfold res_main_v60
  exact ref_state_term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))

/-- Its second result is the cell's output layer. -/
theorem ref_layer (m : (ℓ : Loc nD τ sig) → Buf (Elt Ideal) ℓ) (c : Dev nD) :
    res_main_v75 (F := Ideal) m c
      = outLayer (M := 16384) (paramsOf (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))) (m ((c.tc : Thread nD τ).loc main_arg0)) (m ((c.tc : Thread nD τ).loc main_arg1)) (m ((c.tc : Thread nD τ).loc main_arg2)) := by
  unfold res_main_v75
  exact ref_layer_term (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))

end Cert.ReferenceIdeal.RefValue

end
-- ==== Proof.lean ====
/-
  An attention-GRU cell, fused into one pipelined kernel, against its plain reference.

  The kernel fuses the twelve linear maps of the cell into five products: the weights that share an input are laid side
  by side before the region, each grid point multiplies its block of 256 rows of the input, the previous state and the
  attended context by the fused matrices, slices the products back apart, and forms the gates, the candidate, the new
  state and the output layer on that block. The reference forms the same quantities on all 16384 rows with twelve
  separate products. Over the extended reals a change of float format is the identity and a product's sum may be taken
  in any order, so both programs compute, row by row, the same function of the same arguments with every sum grouped the
  same way: the cell of proof/Proof/CellSpec.lean. The kernel's side is read block by block and assembled by row-locality;
  the reference's side is its composed term rewritten operation by operation.

  Both kernel programs run to the end, fault nowhere and leave their arguments unchanged: the host operations before
  the region write no argument, the region's body only reads its input buffers and stores each output buffer whole.
  The idealization rewrote no operation, so it preserves the program as printed.
-/
import proofs.«118329_j35837207118456_2_alg».proof.Defs
import proofs.«118329_j35837207118456_2_alg».proof.Proof.Gen.Kernel
import proofs.«118329_j35837207118456_2_alg».proof.Proof.Gen.KernelIdeal
import proofs.«118329_j35837207118456_2_alg».proof.Proof.Gen.ReferenceIdeal
import proofs.«118329_j35837207118456_2_alg».proof.Proof.Gen.Pre_finite_inputs
import proofs.«118329_j35837207118456_2_alg».proof.Proof.Gen.ReferenceIdeal.Run
import proofs.«118329_j35837207118456_2_alg».proof.Proof.RunBits
import proofs.«118329_j35837207118456_2_alg».proof.Proof.KernelValue
import proofs.«118329_j35837207118456_2_alg».proof.Proof.RefCell
import Idealize.ShloMosaic.Adequacy
import Idealize.ShloMosaic.Init

noncomputable section

namespace Cert.Proof

open Idealize.ShloMosaic Idealize.SL.Sem

/-- The word-level kernel runs to the end with its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Equal arguments give equal cells. -/
theorem cell_congr {a0 b0 : Cert.Cell.Mat 16384 1024} {a1 b1 : Cert.Cell.Mat 16384 1024} {a2 b2 : Cert.Cell.Mat 16384 2048} {a3 b3 : Cert.Cell.Mat 1024 1024} {a4 b4 : (⟨1, ![1024]⟩ : Shape).Idx → EReal} {a5 b5 : Cert.Cell.Mat 1024 1024} {a6 b6 : (⟨1, ![1024]⟩ : Shape).Idx → EReal} {a7 b7 : Cert.Cell.Mat 1024 1024} {a8 b8 : (⟨1, ![1024]⟩ : Shape).Idx → EReal} {a9 b9 : Cert.Cell.Mat 1024 1024} {a10 b10 : (⟨1, ![1024]⟩ : Shape).Idx → EReal} {a11 b11 : Cert.Cell.Mat 1024 1024} {a12 b12 : (⟨1, ![1024]⟩ : Shape).Idx → EReal} {a13 b13 : Cert.Cell.Mat 1024 1024} {a14 b14 : (⟨1, ![1024]⟩ : Shape).Idx → EReal} {a15 b15 : Cert.Cell.Mat 2048 1024} {a16 b16 : (⟨1, ![1024]⟩ : Shape).Idx → EReal} {a17 b17 : Cert.Cell.Mat 2048 1024} {a18 b18 : (⟨1, ![1024]⟩ : Shape).Idx → EReal} {a19 b19 : Cert.Cell.Mat 2048 1024} {a20 b20 : (⟨1, ![1024]⟩ : Shape).Idx → EReal} {a21 b21 : Cert.Cell.Mat 1024 1024} {a22 b22 : (⟨1, ![1024]⟩ : Shape).Idx → EReal} {a23 b23 : Cert.Cell.Mat 1024 1024} {a24 b24 : (⟨1, ![1024]⟩ : Shape).Idx → EReal} {a25 b25 : Cert.Cell.Mat 2048 1024} {a26 b26 : (⟨1, ![1024]⟩ : Shape).Idx → EReal}
    (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) (h14 : b14 = a14) (h15 : b15 = a15) (h16 : b16 = a16) (h17 : b17 = a17) (h18 : b18 = a18) (h19 : b19 = a19) (h20 : b20 = a20) (h21 : b21 = a21) (h22 : b22 = a22) (h23 : b23 = a23) (h24 : b24 = a24) (h25 : b25 = a25) (h26 : b26 = a26) :
    Cert.Cell.state (M := 16384) (Cert.Cell.paramsOf b3 b4 b5 b6 b7 b8 b9 b10 b11 b12 b13 b14 b15 b16 b17 b18 b19 b20 b21 b22 b23 b24 b25 b26) b0 b1 b2 = Cert.Cell.state (M := 16384) (Cert.Cell.paramsOf a3 a4 a5 a6 a7 a8 a9 a10 a11 a12 a13 a14 a15 a16 a17 a18 a19 a20 a21 a22 a23 a24 a25 a26) a0 a1 a2
    ∧ Cert.Cell.outLayer (M := 16384) (Cert.Cell.paramsOf b3 b4 b5 b6 b7 b8 b9 b10 b11 b12 b13 b14 b15 b16 b17 b18 b19 b20 b21 b22 b23 b24 b25 b26) b0 b1 b2 = Cert.Cell.outLayer (M := 16384) (Cert.Cell.paramsOf a3 a4 a5 a6 a7 a8 a9 a10 a11 a12 a13 a14 a15 a16 a17 a18 a19 a20 a21 a22 a23 a24 a25 a26) a0 a1 a2 := by
  subst h0 h1 h2 h3 h4 h5 h6 h7 h8 h9 h10 h11 h12 h13 h14 h15 h16 h17 h18 h19 h20 h21 h22 h23 h24 h25 h26
  exact ⟨rfl, rfl⟩

set_option maxHeartbeats 4000000 in
/-- Both idealized programs end with the cell's new state and output layer of the arguments they agree on. -/
theorem algebraic : Cert.algebraic_KernelIdeal_ReferenceIdeal := by
  intro m ρ m' ρ' _ hagree
  refine ⟨fun c => Cert.KernelIdeal.Hand.stateAll m c, fun c => Cert.KernelIdeal.Hand.layerAll m c,
    Cert.KernelIdeal.Hand.run_value m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16, h17, h18, h19, h20, h21, h22, h23, h24, h25, h26⟩ := hagree c
  have e := cell_congr h0 h1 h2 h3 h4 h5 h6 h7 h8 h9 h10 h11 h12 h13 h14 h15 h16 h17 h18 h19 h20 h21 h22 h23 h24 h25 h26
  exact ⟨((h c).1.trans (Cert.ReferenceIdeal.RefValue.ref_state m' c)).trans e.1,
    ((h c).2.1.trans (Cert.ReferenceIdeal.RefValue.ref_layer m' c)).trans e.2, (h c).2.2⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
